-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1024 : Shape := ⟨2, ![100000, 1024]⟩
abbrev S64x2048 : Shape := ⟨2, ![64, 2048]⟩
abbrev S1600000x1 : Shape := ⟨2, ![1600000, 1]⟩
abbrev S2x1600000 : Shape := ⟨2, ![2, 1600000]⟩
abbrev S1600000 : Shape := ⟨1, ![1600000]⟩
abbrev S1024x64 : Shape := ⟨2, ![1024, 64]⟩
abbrev S64 : Shape := ⟨1, ![64]⟩
abbrev S2048x64 : Shape := ⟨2, ![2048, 64]⟩
abbrev S64x64 : Shape := ⟨2, ![64, 64]⟩
abbrev S1x64 : Shape := ⟨2, ![1, 64]⟩
abbrev S1x1 : Shape := ⟨2, ![1, 1]⟩
abbrev S1 : Shape := ⟨1, ![1]⟩
abbrev S_ : Shape := ⟨0, ![]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S1600000x1 : S_.BroadcastsInDim S1600000x1 (![] : Fin 0 → Fin S1600000x1.rank)
  reducesTo_S1600000x1_S_d0_1 : S1600000x1.ReducesTo [0, 1] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S2048x64 : S_.BroadcastsInDim S2048x64 (![] : Fin 0 → Fin S2048x64.rank)
  reducesTo_S2048x64_S_d0_1 : S2048x64.ReducesTo [0, 1] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg21 : FVec F S64 .f32) (main_arg22 : FVec F S1x1 .f32) (main_arg23 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg21
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S1x1 .f32 := Host.absf main_arg22
  let main_cst_36 : FVec F S_ .f32 := constant S_ .f32 0x7F800000#32
  let main_v95 : FVec F S1x1 .f32 := broadcastInDim S1x1 ![] bcast_S_S1x1 main_cst_36
  let main_v96 : IVec S1x1 1 := cmpf .olt main_v94 main_v95
  let main_c_37 : IVec S_ 1 := constantI S_ 1 1#1
  let main_v97 : IVec S_ 1 := (fun x v => Host.reduce IntOp.andi x v reducesTo_S1x1_S_d0_1 h_S_) main_v96 main_c_37
  let main_v98 : IVec S_ 1 := andi main_v93 main_v97
  let main_v99 : FVec F S1 .f32 := Host.absf main_arg23
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg17 : FVec F S64 .f32) (main_arg18 : FVec F S64 .f32) (main_arg19 : FVec F S64 .f32) (main_arg20 : FVec F S64 .f32) (main_arg21 : FVec F S64 .f32) (main_arg22 : FVec F S1x1 .f32) (main_arg23 : FVec F S1 .f32) (main_v63 : IVec S_ 1) (main_v67 : IVec S_ 1) : IVec S_ 1 :=
  let main_v68 : IVec S_ 1 := andi main_v63 main_v67
  let main_v69 : FVec F S64 .f32 := Host.absf main_arg17
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg18
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg19
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg20
  let main_cst_32 : FVec F S_ .f32 := constant S_ .f32 0x7F800000#32
  fn_part5 (F := F) main_arg21 main_arg22 main_arg23 main_v83 main_v84 main_cst_32

def fn_part3 {F : FTy → Type} [FloatOps F] (main_arg14 : FVec F S64x64 .f32) (main_arg15 : FVec F S64 .f32) (main_arg16 : FVec F S1x64 .f32) (main_arg17 : FVec F S64 .f32) (main_arg18 : FVec F S64 .f32) (main_arg19 : FVec F S64 .f32) (main_arg20 : FVec F S64 .f32) (main_arg21 : FVec F S64 .f32) (main_arg22 : FVec F S1x1 .f32) (main_arg23 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg14
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S1x64 .f32 := Host.absf main_arg16
  let main_cst_24 : FVec F S_ .f32 := constant S_ .f32 0x7F800000#32
  let main_v65 : FVec F S1x64 .f32 := broadcastInDim S1x64 ![] bcast_S_S1x64 main_cst_24
  let main_v66 : IVec S1x64 1 := cmpf .olt main_v64 main_v65
  let main_c_25 : IVec S_ 1 := constantI S_ 1 1#1
  let main_v67 : IVec S_ 1 := (fun x v => Host.reduce IntOp.andi x v reducesTo_S1x64_S_d0_1 h_S_) main_v66 main_c_25
  fn_part4 (F := F) main_arg17 main_arg18 main_arg19 main_arg20 main_arg21 main_arg22 main_arg23 main_v63 main_v67

def fn_part2 {F : FTy → Type} [FloatOps F] (main_arg10 : FVec F S64x64 .f32) (main_arg11 : FVec F S64 .f32) (main_arg12 : FVec F S1x64 .f32) (main_arg13 : FVec F S64 .f32) (main_arg14 : FVec F S64x64 .f32) (main_arg15 : FVec F S64 .f32) (main_arg16 : FVec F S1x64 .f32) (main_arg17 : FVec F S64 .f32) (main_arg18 : FVec F S64 .f32) (main_arg19 : FVec F S64 .f32) (main_arg20 : FVec F S64 .f32) (main_arg21 : FVec F S64 .f32) (main_arg22 : FVec F S1x1 .f32) (main_arg23 : FVec F S1 .f32) (main_v33 : IVec S_ 1) : IVec S_ 1 :=
  let main_v34 : FVec F S64x64 .f32 := Host.absf main_arg10
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg11
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S1x64 .f32 := Host.absf main_arg12
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  let main_v49 : FVec F S64 .f32 := Host.absf main_arg13
  let main_cst_18 : FVec F S_ .f32 := constant S_ .f32 0x7F800000#32
  let main_v50 : FVec F S64 .f32 := broadcastInDim S64 ![] bcast_S_S64 main_cst_18
  fn_part3 (F := F) main_arg14 main_arg15 main_arg16 main_arg17 main_arg18 main_arg19 main_arg20 main_arg21 main_arg22 main_arg23 main_v48 main_v49 main_v50

def fn_part1 {F : FTy → Type} [FloatOps F] (main_arg7 : FVec F S64 .f32) (main_arg8 : FVec F S2048x64 .f32) (main_arg9 : FVec F S64 .f32) (main_arg10 : FVec F S64x64 .f32) (main_arg11 : FVec F S64 .f32) (main_arg12 : FVec F S1x64 .f32) (main_arg13 : FVec F S64 .f32) (main_arg14 : FVec F S64x64 .f32) (main_arg15 : FVec F S64 .f32) (main_arg16 : FVec F S1x64 .f32) (main_arg17 : FVec F S64 .f32) (main_arg18 : FVec F S64 .f32) (main_arg19 : FVec F S64 .f32) (main_arg20 : FVec F S64 .f32) (main_arg21 : FVec F S64 .f32) (main_arg22 : FVec F S1x1 .f32) (main_arg23 : FVec F S1 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2048x64 .f32 := Host.absf main_arg8
  let main_cst_8 : FVec F S_ .f32 := constant S_ .f32 0x7F800000#32
  let main_v25 : FVec F S2048x64 .f32 := broadcastInDim S2048x64 ![] bcast_S_S2048x64 main_cst_8
  let main_v26 : IVec S2048x64 1 := cmpf .olt main_v24 main_v25
  let main_c_9 : IVec S_ 1 := constantI S_ 1 1#1
  let main_v27 : IVec S_ 1 := (fun x v => Host.reduce IntOp.andi x v reducesTo_S2048x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_arg23 main_v33

def fn {F : FTy → Type} [FloatOps F] (main_arg0 : FVec F S100000x1024 .f32) (main_arg1 : FVec F S64x2048 .f32) (main_arg2 : FVec F S1600000x1 .f32) (main_arg3 : IVec S2x1600000 32) (main_arg4 : IVec S1600000 1) (main_arg5 : IVec S1600000 1) (main_arg6 : FVec F S1024x64 .f32) (main_arg7 : FVec F S64 .f32) (main_arg8 : FVec F S2048x64 .f32) (main_arg9 : FVec F S64 .f32) (main_arg10 : FVec F S64x64 .f32) (main_arg11 : FVec F S64 .f32) (main_arg12 : FVec F S1x64 .f32) (main_arg13 : FVec F S64 .f32) (main_arg14 : FVec F S64x64 .f32) (main_arg15 : FVec F S64 .f32) (main_arg16 : FVec F S1x64 .f32) (main_arg17 : FVec F S64 .f32) (main_arg18 : FVec F S64 .f32) (main_arg19 : FVec F S64 .f32) (main_arg20 : FVec F S64 .f32) (main_arg21 : FVec F S64 .f32) (main_arg22 : FVec F S1x1 .f32) (main_arg23 : FVec F S1 .f32) : IVec S_ 1 :=
  let main_v0 : FVec F S100000x1024 .f32 := Host.absf main_arg0
  let main_cst : FVec F S_ .f32 := constant S_ .f32 0x7F800000#32
  let main_v1 : FVec F S100000x1024 .f32 := broadcastInDim S100000x1024 ![] bcast_S_S100000x1024 main_cst
  let main_v2 : IVec S100000x1024 1 := cmpf .olt main_v0 main_v1
  let main_c : IVec S_ 1 := constantI S_ 1 1#1
  let main_v3 : IVec S_ 1 := (fun x v => Host.reduce IntOp.andi x v reducesTo_S100000x1024_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S1600000x1 .f32 := Host.absf main_arg2
  let main_cst_2 : FVec F S_ .f32 := constant S_ .f32 0x7F800000#32
  let main_v10 : FVec F S1600000x1 .f32 := broadcastInDim S1600000x1 ![] bcast_S_S1600000x1 main_cst_2
  let main_v11 : IVec S1600000x1 1 := cmpf .olt main_v9 main_v10
  let main_c_3 : IVec S_ 1 := constantI S_ 1 1#1
  let main_v12 : IVec S_ 1 := (fun x v => Host.reduce IntOp.andi x v reducesTo_S1600000x1_S_d0_1 h_S_) main_v11 main_c_3
  let main_v13 : IVec S_ 1 := andi main_v8 main_v12
  let main_v14 : FVec F S1024x64 .f32 := Host.absf main_arg6
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S100000x1024 : Shape := ⟨2, ![100000, 1024]⟩
abbrev S64x2048 : Shape := ⟨2, ![64, 2048]⟩
abbrev S1600000x1 : Shape := ⟨2, ![1600000, 1]⟩
abbrev S2x1600000 : Shape := ⟨2, ![2, 1600000]⟩
abbrev S1600000 : Shape := ⟨1, ![1600000]⟩
abbrev S1024x64 : Shape := ⟨2, ![1024, 64]⟩
abbrev S64 : Shape := ⟨1, ![64]⟩
abbrev S2048x64 : Shape := ⟨2, ![2048, 64]⟩
abbrev S64x64 : Shape := ⟨2, ![64, 64]⟩
abbrev S1x64 : Shape := ⟨2, ![1, 64]⟩
abbrev S1x1 : Shape := ⟨2, ![1, 1]⟩
abbrev S1 : Shape := ⟨1, ![1]⟩
abbrev S1x1600000 : Shape := ⟨2, ![1, 1600000]⟩
abbrev S_ : Shape := ⟨0, ![]⟩
abbrev S1600000x2 : Shape := ⟨2, ![1600000, 2]⟩
abbrev S100000x64 : Shape := ⟨2, ![100000, 64]⟩
abbrev S2000x1024 : Shape := ⟨2, ![2000, 1024]⟩
abbrev S2000x64 : Shape := ⟨2, ![2000, 64]⟩
abbrev S100064x64 : Shape := ⟨2, ![100064, 64]⟩
abbrev S100064 : Shape := ⟨1, ![100064]⟩
abbrev S1600000x64 : Shape := ⟨2, ![1600000, 64]⟩
abbrev S8000x64 : Shape := ⟨2, ![8000, 64]⟩
abbrev S8000x2 : Shape := ⟨2, ![8000, 2]⟩
abbrev S8000x1 : Shape := ⟨2, ![8000, 1]⟩
abbrev S100064x1 : Shape := ⟨2, ![100064, 1]⟩

abbrev nBuf : Space → Nat
  | .hbm => 194
  | .vmem => 26
  | .smem => 0
  | _ => 0

abbrev hbmTy0_0 (i : Nat) : BufTy := match i % 128 with
  | 0 => ⟨S100000x1024, .f32⟩
  | 1 => ⟨S64x2048, .f32⟩
  | 2 => ⟨S1600000x1, .f32⟩
  | 3 => ⟨S2x1600000, .i32⟩
  | 4 => ⟨S1600000, .i1⟩
  | 5 => ⟨S1600000, .i1⟩
  | 6 => ⟨S1024x64, .f32⟩
  | 7 => ⟨S64, .f32⟩
  | 8 => ⟨S2048x64, .f32⟩
  | 9 => ⟨S64, .f32⟩
  | 10 => ⟨S64x64, .f32⟩
  | 11 => ⟨S64, .f32⟩
  | 12 => ⟨S1x64, .f32⟩
  | 13 => ⟨S64, .f32⟩
  | 14 => ⟨S64x64, .f32⟩
  | 15 => ⟨S64, .f32⟩
  | 16 => ⟨S1x64, .f32⟩
  | 17 => ⟨S64, .f32⟩
  | 18 => ⟨S64, .f32⟩
  | 19 => ⟨S64, .f32⟩
  | 20 => ⟨S64, .f32⟩
  | 21 => ⟨S64, .f32⟩
  | 22 => ⟨S1x1, .f32⟩
  | 23 => ⟨S1, .f32⟩
  | 24 => ⟨S1x1600000, .i32⟩
  | 25 => ⟨S1600000, .i32⟩
  | 26 => ⟨S1x1600000, .i32⟩
  | 27 => ⟨S1600000, .i32⟩
  | 28 => ⟨S1600000, .f32⟩
  | 29 => ⟨S1600000x1, .f32⟩
  | 30 => ⟨S1x1, .f32⟩
  | 31 => ⟨S1600000x1, .f32⟩
  | 32 => ⟨S1600000x1, .f32⟩
  | 33 => ⟨S_, .f32⟩
  | 34 => ⟨S1600000x1, .f32⟩
  | 35 => ⟨S1600000x1, .i1⟩
  | 36 => ⟨S_, .f32⟩
  | 37 => ⟨S1600000x1, .f32⟩
  | 38 => ⟨S1600000x1, .f32⟩
  | 39 => ⟨S1600000x1, .f32⟩
  | 40 => ⟨S1600000x1, .f32⟩
  | 41 => ⟨S1600000x2, .f32⟩
  | 42 => ⟨S1x64, .f32⟩
  | 43 => ⟨S100000x64, .f32⟩
  | 44 => ⟨S64x64, .f32⟩
  | 45 => ⟨S1x64, .f32⟩
  | 46 => ⟨S64x64, .f32⟩
  | 47 => ⟨S64x64, .f32⟩
  | 48 => ⟨S100064x64, .f32⟩
  | 49 => ⟨S_, .f32⟩
  | 50 => ⟨S100064, .f32⟩
  | 51 => ⟨S1600000x1, .i32⟩
  | 52 => ⟨S100064, .f32⟩
  | 53 => ⟨S100064x64, .bf16⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .bf16⟩
  | 63 => ⟨S1x64, .f32⟩
  | 64 => ⟨S1x64, .f32⟩
  | 65 => ⟨S1600000x64, .f32⟩
  | 66 => ⟨S_, .f32⟩
  | 67 => ⟨S100064x64, .f32⟩
  | 68 => ⟨S1600000x1, .i32⟩
  | 69 => ⟨S100064x64, .f32⟩
  | 70 => ⟨S_, .f32⟩
  | 71 => ⟨S100064, .f32⟩
  | 72 => ⟨S100064, .f32⟩
  | 73 => ⟨S100064x1, .f32⟩
  | 74 => ⟨S100064x64, .f32⟩
  | 75 => ⟨S100064x64, .f32⟩
  | 76 => ⟨S100064x64, .f32⟩
  | 77 => ⟨S_, .f32⟩
  | 78 => ⟨S64, .f32⟩
  | 79 => ⟨S_, .f32⟩
  | 80 => ⟨S64, .f32⟩
  | 81 => ⟨S64, .f32⟩
  | 82 => ⟨S1x64, .f32⟩
  | 83 => ⟨S100064x64, .f32⟩
  | 84 => ⟨S100064x64, .f32⟩
  | 85 => ⟨S100064x64, .f32⟩
  | 86 => ⟨S_, .f32⟩
  | 87 => ⟨S64, .f32⟩
  | 88 => ⟨S_, .f32⟩
  | 89 => ⟨S64, .f32⟩
  | 90 => ⟨S64, .f32⟩
  | 91 => ⟨S1x64, .f32⟩
  | 92 => ⟨S100064x64, .f32⟩
  | 93 => ⟨S100064x64, .f32⟩
  | 94 => ⟨S1x64, .f32⟩
  | 95 => ⟨S100064x64, .f32⟩
  | 96 => ⟨S100064x64, .f32⟩
  | 97 => ⟨S_, .f32⟩
  | 98 => ⟨S64, .f32⟩
  | 99 => ⟨S64, .f32⟩
  | 100 => ⟨S64, .f32⟩
  | 101 => ⟨S1x64, .f32⟩
  | 102 => ⟨S100064x64, .f32⟩
  | 103 => ⟨S100064x64, .f32⟩
  | 104 => ⟨S1x64, .f32⟩
  | 105 => ⟨S100064x64, .f32⟩
  | 106 => ⟨S100064x64, .f32⟩
  | 107 => ⟨S_, .f32⟩
  | 108 => ⟨S100064x64, .f32⟩
  | 109 => ⟨S100064x64, .i1⟩
  | 110 => ⟨S_, .f32⟩
  | 111 => ⟨S100064x64, .f32⟩
  | 112 => ⟨S100064x64, .f32⟩
  | 113 => ⟨S100064x64, .f32⟩
  | 114 => ⟨S100064x64, .bf16⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000x64, .bf16⟩
  | 124 => ⟨S1x64, .f32⟩
  | 125 => ⟨S1x64, .f32⟩
  | 126 => ⟨S1600000x64, .f32⟩
  | 127 => ⟨S_, .f32⟩
  | _ => ⟨S100000x1024, .f32⟩

abbrev hbmTy0_1 (i : Nat) : BufTy := match i % 128 with
  | 0 => ⟨S100064x64, .f32⟩
  | 1 => ⟨S1600000x1, .i32⟩
  | 2 => ⟨S100064x64, .f32⟩
  | 3 => ⟨S_, .f32⟩
  | 4 => ⟨S100064, .f32⟩
  | 5 => ⟨S100064, .f32⟩
  | 6 => ⟨S100064x1, .f32⟩
  | 7 => ⟨S100064x64, .f32⟩
  | 8 => ⟨S100064x64, .f32⟩
  | 9 => ⟨S100064x64, .f32⟩
  | 10 => ⟨S_, .f32⟩
  | 11 => ⟨S64, .f32⟩
  | 12 => ⟨S_, .f32⟩
  | 13 => ⟨S64, .f32⟩
  | 14 => ⟨S64, .f32⟩
  | 15 => ⟨S1x64, .f32⟩
  | 16 => ⟨S100064x64, .f32⟩
  | 17 => ⟨S100064x64, .f32⟩
  | 18 => ⟨S100064x64, .f32⟩
  | 19 => ⟨S_, .f32⟩
  | 20 => ⟨S64, .f32⟩
  | 21 => ⟨S_, .f32⟩
  | 22 => ⟨S64, .f32⟩
  | 23 => ⟨S64, .f32⟩
  | 24 => ⟨S1x64, .f32⟩
  | 25 => ⟨S100064x64, .f32⟩
  | 26 => ⟨S100064x64, .f32⟩
  | 27 => ⟨S1x64, .f32⟩
  | 28 => ⟨S100064x64, .f32⟩
  | 29 => ⟨S100064x64, .f32⟩
  | 30 => ⟨S_, .f32⟩
  | 31 => ⟨S64, .f32⟩
  | 32 => ⟨S64, .f32⟩
  | 33 => ⟨S64, .f32⟩
  | 34 => ⟨S1x64, .f32⟩
  | 35 => ⟨S100064x64, .f32⟩
  | 36 => ⟨S100064x64, .f32⟩
  | 37 => ⟨S1x64, .f32⟩
  | 38 => ⟨S100064x64, .f32⟩
  | 39 => ⟨S100064x64, .f32⟩
  | 40 => ⟨S100064x64, .bf16⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x64, .bf16⟩
  | 50 => ⟨S1600000x64, .f32⟩
  | 51 => ⟨S1600000x64, .f32⟩
  | 52 => ⟨S1600000x64, .f32⟩
  | 53 => ⟨S_, .f32⟩
  | 54 => ⟨S1600000, .f32⟩
  | 55 => ⟨S_, .f32⟩
  | 56 => ⟨S1600000, .f32⟩
  | 57 => ⟨S1600000, .f32⟩
  | 58 => ⟨S1600000, .f32⟩
  | 59 => ⟨S1600000, .f32⟩
  | 60 => ⟨S_, .f32⟩
  | 61 => ⟨S1600000, .f32⟩
  | 62 => ⟨S1600000, .f32⟩
  | 63 => ⟨S_, .f32⟩
  | 64 => ⟨S1600000, .f32⟩
  | 65 => ⟨S1600000, .f32⟩
  | _ => ⟨S100000x1024, .f32⟩

abbrev hbmTy (i : Nat) : BufTy := match i / 128 with
  | 0 => hbmTy0_0 i
  | 1 => hbmTy0_1 i
  | _ => ⟨S100000x1024, .f32⟩

abbrev bufTy : (tb : Table) → Fin (tcTables nBuf tb) → BufTy
  | .hbm, ⟨i, _⟩ => hbmTy i
  | .local _ .vmem, ⟨0, _⟩ => ⟨S2000x1024, .f32⟩
  | .local _ .vmem, ⟨1, _⟩ => ⟨S2000x1024, .f32⟩
  | .local _ .vmem, ⟨2, _⟩ => ⟨S1024x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S8000x64, .bf16⟩
  | .local _ .vmem, ⟨7, _⟩ => ⟨S8000x64, .bf16⟩
  | .local _ .vmem, ⟨8, _⟩ => ⟨S8000x2, .f32⟩
  | .local _ .vmem, ⟨9, _⟩ => ⟨S8000x2, .f32⟩
  | .local _ .vmem, ⟨10, _⟩ => ⟨S64x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S8000x64, .f32⟩
  | .local _ .vmem, ⟨15, _⟩ => ⟨S8000x64, .f32⟩
  | .local _ .vmem, ⟨16, _⟩ => ⟨S8000x64, .bf16⟩
  | .local _ .vmem, ⟨17, _⟩ => ⟨S8000x64, .bf16⟩
  | .local _ .vmem, ⟨18, _⟩ => ⟨S8000x2, .f32⟩
  | .local _ .vmem, ⟨19, _⟩ => ⟨S8000x2, .f32⟩
  | .local _ .vmem, ⟨20, _⟩ => ⟨S64x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S8000x64, .f32⟩
  | .local _ .vmem, ⟨25, _⟩ => ⟨S8000x64, .f32⟩
  | _, _ => ⟨S100000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_v10 : Ref sig .tc := ⟨.hbm, 35, rfl⟩
abbrev main_cst_0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_1 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c : Ref sig .tc := ⟨.hbm, 54, rfl⟩
abbrev main_v27 : Ref sig .tc := ⟨.hbm, 55, rfl⟩
abbrev main_v28 : Ref sig .tc := ⟨.hbm, 56, rfl⟩
abbrev main_c_2 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_3 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_4 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_5 : Ref sig .tc := ⟨.hbm, 77, rfl⟩
abbrev main_v46 : Ref sig .tc := ⟨.hbm, 78, rfl⟩
abbrev main_cst_6 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_7 : Ref sig .tc := ⟨.hbm, 86, rfl⟩
abbrev main_v53 : Ref sig .tc := ⟨.hbm, 87, rfl⟩
abbrev main_cst_8 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_9 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_10 : Ref sig .tc := ⟨.hbm, 107, rfl⟩
abbrev main_v71 : Ref sig .tc := ⟨.hbm, 108, rfl⟩
abbrev main_v72 : Ref sig .tc := ⟨.hbm, 109, rfl⟩
abbrev main_cst_11 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_12 : Ref sig .tc := ⟨.hbm, 115, rfl⟩
abbrev main_v77 : Ref sig .tc := ⟨.hbm, 116, rfl⟩
abbrev main_v78 : Ref sig .tc := ⟨.hbm, 117, rfl⟩
abbrev main_c_13 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_14 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_15 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_16 : Ref sig .tc := ⟨.hbm, 138, rfl⟩
abbrev main_v96 : Ref sig .tc := ⟨.hbm, 139, rfl⟩
abbrev main_cst_17 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_18 : Ref sig .tc := ⟨.hbm, 147, rfl⟩
abbrev main_v103 : Ref sig .tc := ⟨.hbm, 148, rfl⟩
abbrev main_cst_19 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_20 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_c_21 : Ref sig .tc := ⟨.hbm, 169, rfl⟩
abbrev main_v122 : Ref sig .tc := ⟨.hbm, 170, rfl⟩
abbrev main_v123 : Ref sig .tc := ⟨.hbm, 171, rfl⟩
abbrev main_c_22 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_23 : Ref sig .tc := ⟨.hbm, 181, rfl⟩
abbrev main_v132 : Ref sig .tc := ⟨.hbm, 182, rfl⟩
abbrev main_cst_24 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_25 : Ref sig .tc := ⟨.hbm, 188, rfl⟩
abbrev main_v137 : Ref sig .tc := ⟨.hbm, 189, rfl⟩
abbrev main_v138 : Ref sig .tc := ⟨.hbm, 190, rfl⟩
abbrev main_cst_26 : Ref sig .tc := ⟨.hbm, 191, rfl⟩
abbrev main_v139 : Ref sig .tc := ⟨.hbm, 192, rfl⟩
abbrev main_v140 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S8000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  shapeCasts_S64_S1x64 : S64.ShapeCasts S1x64
  inb_S2000x1024_S2000x1024_0_0 : ∀ a, (![0, 0] : Fin 2 → Nat) a + S2000x1024.size a ≤ S2000x1024.size a
  h_S2000x1024 : 0 < S2000x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  concatenates_S100000x64_S64x64_S100064x64_d0 : Shape.Concatenates [S100000x64, S64x64] S100064x64 0
  bcast_S_S100064 : S_.BroadcastsInDim S100064 (![] : Fin 0 → Fin S100064.rank)
  bcast_S_S1600000 : S_.BroadcastsInDim S1600000 (![] : Fin 0 → Fin S1600000.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x2_S8000x2_0_0 : ∀ a, (![0, 0] : Fin 2 → Nat) a + S8000x2.size a ≤ S8000x2.size a
  h_S8000x2 : 0 < S8000x2.numel
  shapeCasts_S8000x2_S8000x2 : S8000x2.ShapeCasts S8000x2
  slices_S8000x2_o0_0_S8000x1 : S8000x2.Slices ![0, 0] S8000x1
  slices_S8000x2_o0_1_S8000x1 : S8000x2.Slices ![0, 1] S8000x1
  inb_S64x64_S64x64_0_0 : ∀ a, (![0, 0] : Fin 2 → Nat) a + S64x64.size a ≤ S64x64.size a
  h_S64x64 : 0 < S64x64.numel
  broadcasts_S1x64_S8000x64 : S1x64.Broadcasts S8000x64
  broadcasts_S8000x1_S8000x64 : S8000x1.Broadcasts S8000x64
  bcast_S_S100064x64 : S_.BroadcastsInDim S100064x64 (![] : Fin 0 → Fin S100064x64.rank)
  bcast_S100064_S100064x1_0 : S100064.BroadcastsInDim S100064x1 (![0] : Fin 1 → Fin S100064x1.rank)
  bcast_S100064x1_S100064x64_0_1 : S100064x1.BroadcastsInDim S100064x64 (![0, 1] : Fin 2 → Fin S100064x64.rank)
  reducesTo_S100064x64_S64_d0 : S100064x64.ReducesTo [0] S64
  h_S_ : 0 < S_.numel
  bcast_S_S64 : S_.BroadcastsInDim S64 (![] : Fin 0 → Fin S64.rank)
  bcast_S1x64_S100064x64_0_1 : S1x64.BroadcastsInDim S100064x64 (![0, 1] : Fin 2 → Fin S100064x64.rank)
  reducesTo_S1600000x64_S1600000_d1 : S1600000x64.ReducesTo [1] S1600000
  dot_S1600000x1_S1x1_S1600000x1_1_0_0_1_n_n_wf : DotDims.WF S1600000x1 S1x1 S1600000x1 [1] [0] [0] [1] [] []
  dot_S2000x1024_S1024x64_S2000x64_1_0_0_1_n_n_wf : DotDims.WF S2000x1024 S1024x64 S2000x64 [1] [0] [0] [1] [] []
  dot_S64x2048_S2048x64_S64x64_1_0_0_1_n_n_wf : DotDims.WF S64x2048 S2048x64 S64x64 [1] [0] [0] [1] [] []
  scatter_S100064_S1600000x1_S1600000_n_0_0_1_wf : ScatterDims.WF S100064 S1600000x1 S1600000 [] [0] [0] 1
  gather_S100064x64_S1600000x1_S1600000x64_1_0_n_n_0_1_164_wf : GatherDims.WF S100064x64 S1600000x1 S1600000x64 [1] [0] [] [0] [] 1 ![1, 64]
  dot_S8000x64_S64x64_S8000x64_1_0_0_1_n_n_wf : DotDims.WF S8000x64 S64x64 S8000x64 [1] [0] [0] [1] [] []
  scatter_S100064x64_S1600000x1_S1600000x64_1_0_0_1_wf : ScatterDims.WF S100064x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S100000x1024.size a
  hwx0_0 : ∀ i : grid0.Coords, EltTy.bits .f32 = 32 ∨ (Rect.block (s := S100000x1024) S2000x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .f32 = 32 ∨ (Rect.block (s := S100000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .bf16 = 32 ∨ (Rect.block (s := S1600000x64) S8000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x2.size a ≤ S1600000x2.size a
  hwx1_1 : ∀ i : grid1.Coords, EltTy.bits .f32 = 32 ∨ (Rect.block (s := S1600000x2) S8000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x64.size a ≤ S1600000x64.size a
  hwx1_6 : ∀ i : grid1.Coords, EltTy.bits .f32 = 32 ∨ (Rect.block (s := S1600000x64) S8000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S1600000x64.size a
  hwx2_0 : ∀ i : grid2.Coords, EltTy.bits .bf16 = 32 ∨ (Rect.block (s := S1600000x64) S8000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x2.size a ≤ S1600000x2.size a
  hwx2_1 : ∀ i : grid2.Coords, EltTy.bits .f32 = 32 ∨ (Rect.block (s := S1600000x2) S8000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8000x64.size a ≤ S1600000x64.size a
  hwx2_6 : ∀ i : grid2.Coords, EltTy.bits .f32 = 32 ∨ (Rect.block (s := S1600000x64) S8000x64.size (cc2_transform_6 i) (hinb2_6 i)).WholeWords (EltTy.packing .f32)

variable [Facts₀]

def dot_S1600000x1_S1x1_S1600000x1_1_0_0_1_n_n : DotDims S1600000x1 S1x1 S1600000x1 where
  lhsContracting := [1]
  rhsContracting := [0]
  lhsNonContracting := [0]
  rhsNonContracting := [1]
  lhsBatch := []
  rhsBatch := []
  wf := dot_S1600000x1_S1x1_S1600000x1_1_0_0_1_n_n_wf
def dot_S2000x1024_S1024x64_S2000x64_1_0_0_1_n_n : DotDims S2000x1024 S1024x64 S2000x64 where
  lhsContracting := [1]
  rhsContracting := [0]
  lhsNonContracting := [0]
  rhsNonContracting := [1]
  lhsBatch := []
  rhsBatch := []
  wf := dot_S2000x1024_S1024x64_S2000x64_1_0_0_1_n_n_wf
def dot_S64x2048_S2048x64_S64x64_1_0_0_1_n_n : DotDims S64x2048 S2048x64 S64x64 where
  lhsContracting := [1]
  rhsContracting := [0]
  lhsNonContracting := [0]
  rhsNonContracting := [1]
  lhsBatch := []
  rhsBatch := []
  wf := dot_S64x2048_S2048x64_S64x64_1_0_0_1_n_n_wf
def scatter_S100064_S1600000x1_S1600000_n_0_0_1 : ScatterDims S100064 S1600000x1 S1600000 where
  updateWindowDims := []
  insertedWindowDims := [0]
  scatterDimsToOperandDims := [0]
  indexVectorDim := 1
  wf := scatter_S100064_S1600000x1_S1600000_n_0_0_1_wf
def gather_S100064x64_S1600000x1_S1600000x64_1_0_n_n_0_1_164 : GatherDims S100064x64 S1600000x1 S1600000x64 where
  offsetDims := [1]
  collapsedSliceDims := [0]
  operandBatchingDims := []
  startIndicesBatchingDims := []
  startIndexMap := [0]
  indexVectorDim := 1
  sliceSizes := ![1, 64]
  wf := gather_S100064x64_S1600000x1_S1600000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100064x64_S1600000x1_S1600000x64_1_0_0_1 : ScatterDims S100064x64 S1600000x1 S1600000x64 where
  updateWindowDims := [1]
  insertedWindowDims := [0]
  scatterDimsToOperandDims := [0]
  indexVectorDim := 1
  wf := scatter_S100064x64_S1600000x1_S1600000x64_1_0_0_1_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S8000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S8000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v83) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S8000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v84) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v85) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v86) S8000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x1024 : Shape := ⟨2, ![100000, 1024]⟩
abbrev S64x2048 : Shape := ⟨2, ![64, 2048]⟩
abbrev S1600000x1 : Shape := ⟨2, ![1600000, 1]⟩
abbrev S2x1600000 : Shape := ⟨2, ![2, 1600000]⟩
abbrev S1600000 : Shape := ⟨1, ![1600000]⟩
abbrev S1024x64 : Shape := ⟨2, ![1024, 64]⟩
abbrev S64 : Shape := ⟨1, ![64]⟩
abbrev S2048x64 : Shape := ⟨2, ![2048, 64]⟩
abbrev S64x64 : Shape := ⟨2, ![64, 64]⟩
abbrev S1x64 : Shape := ⟨2, ![1, 64]⟩
abbrev S1x1 : Shape := ⟨2, ![1, 1]⟩
abbrev S1 : Shape := ⟨1, ![1]⟩
abbrev S1x1600000 : Shape := ⟨2, ![1, 1600000]⟩
abbrev S_ : Shape := ⟨0, ![]⟩
abbrev S100000x64 : Shape := ⟨2, ![100000, 64]⟩
abbrev S100064x64 : Shape := ⟨2, ![100064, 64]⟩
abbrev S1600000x64 : Shape := ⟨2, ![1600000, 64]⟩
abbrev S100064 : Shape := ⟨1, ![100064]⟩
abbrev S100064x1 : Shape := ⟨2, ![100064, 1]⟩

abbrev nBuf : Space → Nat
  | .hbm => 220
  | .vmem => 0
  | .smem => 0
  | _ => 0

abbrev hbmTy0_0 (i : Nat) : BufTy := match i % 128 with
  | 0 => ⟨S100000x1024, .f32⟩
  | 1 => ⟨S64x2048, .f32⟩
  | 2 => ⟨S1600000x1, .f32⟩
  | 3 => ⟨S2x1600000, .i32⟩
  | 4 => ⟨S1600000, .i1⟩
  | 5 => ⟨S1600000, .i1⟩
  | 6 => ⟨S1024x64, .f32⟩
  | 7 => ⟨S64, .f32⟩
  | 8 => ⟨S2048x64, .f32⟩
  | 9 => ⟨S64, .f32⟩
  | 10 => ⟨S64x64, .f32⟩
  | 11 => ⟨S64, .f32⟩
  | 12 => ⟨S1x64, .f32⟩
  | 13 => ⟨S64, .f32⟩
  | 14 => ⟨S64x64, .f32⟩
  | 15 => ⟨S64, .f32⟩
  | 16 => ⟨S1x64, .f32⟩
  | 17 => ⟨S64, .f32⟩
  | 18 => ⟨S64, .f32⟩
  | 19 => ⟨S64, .f32⟩
  | 20 => ⟨S64, .f32⟩
  | 21 => ⟨S64, .f32⟩
  | 22 => ⟨S1x1, .f32⟩
  | 23 => ⟨S1, .f32⟩
  | 24 => ⟨S1x1600000, .i32⟩
  | 25 => ⟨S1600000, .i32⟩
  | 26 => ⟨S1x1600000, .i32⟩
  | 27 => ⟨S1600000, .i32⟩
  | 28 => ⟨S1600000, .f32⟩
  | 29 => ⟨S1600000x1, .f32⟩
  | 30 => ⟨S1x1, .f32⟩
  | 31 => ⟨S1600000x1, .f32⟩
  | 32 => ⟨S1600000x1, .f32⟩
  | 33 => ⟨S_, .f32⟩
  | 34 => ⟨S1600000x1, .f32⟩
  | 35 => ⟨S1600000x1, .i1⟩
  | 36 => ⟨S_, .f32⟩
  | 37 => ⟨S1600000x1, .f32⟩
  | 38 => ⟨S1600000x1, .f32⟩
  | 39 => ⟨S1600000x1, .f32⟩
  | 40 => ⟨S100000x64, .f32⟩
  | 41 => ⟨S1x64, .f32⟩
  | 42 => ⟨S100000x64, .f32⟩
  | 43 => ⟨S100000x64, .f32⟩
  | 44 => ⟨S64x64, .f32⟩
  | 45 => ⟨S1x64, .f32⟩
  | 46 => ⟨S64x64, .f32⟩
  | 47 => ⟨S64x64, .f32⟩
  | 48 => ⟨S100064x64, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x64, .f32⟩
  | 58 => ⟨S1600000x64, .f32⟩
  | 59 => ⟨S1x64, .f32⟩
  | 60 => ⟨S1600000x64, .f32⟩
  | 61 => ⟨S1600000x64, .f32⟩
  | 62 => ⟨S1600000x64, .f32⟩
  | 63 => ⟨S1600000x64, .f32⟩
  | 64 => ⟨S1x64, .f32⟩
  | 65 => ⟨S1600000x64, .f32⟩
  | 66 => ⟨S1600000x64, .f32⟩
  | 67 => ⟨S1600000x1, .f32⟩
  | 68 => ⟨S1600000x64, .f32⟩
  | 69 => ⟨S1600000x64, .f32⟩
  | 70 => ⟨S_, .f32⟩
  | 71 => ⟨S100064x64, .f32⟩
  | 72 => ⟨S1600000x1, .i32⟩
  | 73 => ⟨S100064x64, .f32⟩
  | 74 => ⟨S_, .f32⟩
  | 75 => ⟨S100064, .f32⟩
  | 76 => ⟨S1600000x1, .i32⟩
  | 77 => ⟨S100064, .f32⟩
  | 78 => ⟨S_, .f32⟩
  | 79 => ⟨S100064, .f32⟩
  | 80 => ⟨S100064, .f32⟩
  | 81 => ⟨S100064x1, .f32⟩
  | 82 => ⟨S100064x64, .f32⟩
  | 83 => ⟨S100064x64, .f32⟩
  | 84 => ⟨S100064x64, .f32⟩
  | 85 => ⟨S_, .f32⟩
  | 86 => ⟨S64, .f32⟩
  | 87 => ⟨S_, .f32⟩
  | 88 => ⟨S64, .f32⟩
  | 89 => ⟨S64, .f32⟩
  | 90 => ⟨S1x64, .f32⟩
  | 91 => ⟨S100064x64, .f32⟩
  | 92 => ⟨S100064x64, .f32⟩
  | 93 => ⟨S100064x64, .f32⟩
  | 94 => ⟨S_, .f32⟩
  | 95 => ⟨S64, .f32⟩
  | 96 => ⟨S_, .f32⟩
  | 97 => ⟨S64, .f32⟩
  | 98 => ⟨S64, .f32⟩
  | 99 => ⟨S1x64, .f32⟩
  | 100 => ⟨S100064x64, .f32⟩
  | 101 => ⟨S100064x64, .f32⟩
  | 102 => ⟨S1x64, .f32⟩
  | 103 => ⟨S100064x64, .f32⟩
  | 104 => ⟨S100064x64, .f32⟩
  | 105 => ⟨S_, .f32⟩
  | 106 => ⟨S64, .f32⟩
  | 107 => ⟨S64, .f32⟩
  | 108 => ⟨S64, .f32⟩
  | 109 => ⟨S1x64, .f32⟩
  | 110 => ⟨S100064x64, .f32⟩
  | 111 => ⟨S100064x64, .f32⟩
  | 112 => ⟨S1x64, .f32⟩
  | 113 => ⟨S100064x64, .f32⟩
  | 114 => ⟨S100064x64, .f32⟩
  | 115 => ⟨S_, .f32⟩
  | 116 => ⟨S100064x64, .f32⟩
  | 117 => ⟨S100064x64, .i1⟩
  | 118 => ⟨S_, .f32⟩
  | 119 => ⟨S100064x64, .f32⟩
  | 120 => ⟨S100064x64, .f32⟩
  | 121 => ⟨S100064x64, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x1024, .f32⟩

abbrev hbmTy0_1 (i : Nat) : BufTy := match i % 128 with
  | 0 => ⟨S1600000, .i32⟩
  | 1 => ⟨S1600000x1, .i32⟩
  | 2 => ⟨S1600000x64, .f32⟩
  | 3 => ⟨S1600000x64, .f32⟩
  | 4 => ⟨S1x64, .f32⟩
  | 5 => ⟨S1600000x64, .f32⟩
  | 6 => ⟨S1600000x64, .f32⟩
  | 7 => ⟨S1600000x64, .f32⟩
  | 8 => ⟨S1600000x64, .f32⟩
  | 9 => ⟨S1x64, .f32⟩
  | 10 => ⟨S1600000x64, .f32⟩
  | 11 => ⟨S1600000x64, .f32⟩
  | 12 => ⟨S1600000x1, .f32⟩
  | 13 => ⟨S1600000x64, .f32⟩
  | 14 => ⟨S1600000x64, .f32⟩
  | 15 => ⟨S_, .f32⟩
  | 16 => ⟨S100064x64, .f32⟩
  | 17 => ⟨S1600000x1, .i32⟩
  | 18 => ⟨S100064x64, .f32⟩
  | 19 => ⟨S_, .f32⟩
  | 20 => ⟨S100064, .f32⟩
  | 21 => ⟨S1600000x1, .i32⟩
  | 22 => ⟨S100064, .f32⟩
  | 23 => ⟨S_, .f32⟩
  | 24 => ⟨S100064, .f32⟩
  | 25 => ⟨S100064, .f32⟩
  | 26 => ⟨S100064x1, .f32⟩
  | 27 => ⟨S100064x64, .f32⟩
  | 28 => ⟨S100064x64, .f32⟩
  | 29 => ⟨S100064x64, .f32⟩
  | 30 => ⟨S_, .f32⟩
  | 31 => ⟨S64, .f32⟩
  | 32 => ⟨S_, .f32⟩
  | 33 => ⟨S64, .f32⟩
  | 34 => ⟨S64, .f32⟩
  | 35 => ⟨S1x64, .f32⟩
  | 36 => ⟨S100064x64, .f32⟩
  | 37 => ⟨S100064x64, .f32⟩
  | 38 => ⟨S100064x64, .f32⟩
  | 39 => ⟨S_, .f32⟩
  | 40 => ⟨S64, .f32⟩
  | 41 => ⟨S_, .f32⟩
  | 42 => ⟨S64, .f32⟩
  | 43 => ⟨S64, .f32⟩
  | 44 => ⟨S1x64, .f32⟩
  | 45 => ⟨S100064x64, .f32⟩
  | 46 => ⟨S100064x64, .f32⟩
  | 47 => ⟨S1x64, .f32⟩
  | 48 => ⟨S100064x64, .f32⟩
  | 49 => ⟨S100064x64, .f32⟩
  | 50 => ⟨S_, .f32⟩
  | 51 => ⟨S64, .f32⟩
  | 52 => ⟨S64, .f32⟩
  | 53 => ⟨S64, .f32⟩
  | 54 => ⟨S1x64, .f32⟩
  | 55 => ⟨S100064x64, .f32⟩
  | 56 => ⟨S100064x64, .f32⟩
  | 57 => ⟨S1x64, .f32⟩
  | 58 => ⟨S100064x64, .f32⟩
  | 59 => ⟨S100064x64, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x64, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x64, .f32⟩
  | 78 => ⟨S1600000x64, .f32⟩
  | 79 => ⟨S_, .f32⟩
  | 80 => ⟨S1600000, .f32⟩
  | 81 => ⟨S_, .f32⟩
  | 82 => ⟨S1600000, .f32⟩
  | 83 => ⟨S1600000, .f32⟩
  | 84 => ⟨S1600000, .f32⟩
  | 85 => ⟨S1600000, .f32⟩
  | 86 => ⟨S_, .f32⟩
  | 87 => ⟨S1600000, .f32⟩
  | 88 => ⟨S1600000, .f32⟩
  | 89 => ⟨S_, .f32⟩
  | 90 => ⟨S1600000, .f32⟩
  | 91 => ⟨S1600000, .f32⟩
  | _ => ⟨S100000x1024, .f32⟩

abbrev hbmTy (i : Nat) : BufTy := match i / 128 with
  | 0 => hbmTy0_0 i
  | 1 => hbmTy0_1 i
  | _ => ⟨S100000x1024, .f32⟩

abbrev bufTy : (tb : Table) → Fin (tcTables nBuf tb) → BufTy
  | .hbm, ⟨i, _⟩ => hbmTy i
  | _, _ => ⟨S100000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_v10 : Ref sig .tc := ⟨.hbm, 35, rfl⟩
abbrev main_cst_0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c : Ref sig .tc := ⟨.hbm, 49, rfl⟩
abbrev main_v23 : Ref sig .tc := ⟨.hbm, 50, rfl⟩
abbrev main_v24 : Ref sig .tc := ⟨.hbm, 51, rfl⟩
abbrev main_c_1 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_2 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_3 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_4 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_5 : Ref sig .tc := ⟨.hbm, 85, rfl⟩
abbrev main_v54 : Ref sig .tc := ⟨.hbm, 86, rfl⟩
abbrev main_cst_6 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_7 : Ref sig .tc := ⟨.hbm, 94, rfl⟩
abbrev main_v61 : Ref sig .tc := ⟨.hbm, 95, rfl⟩
abbrev main_cst_8 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_9 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_10 : Ref sig .tc := ⟨.hbm, 115, rfl⟩
abbrev main_v79 : Ref sig .tc := ⟨.hbm, 116, rfl⟩
abbrev main_v80 : Ref sig .tc := ⟨.hbm, 117, rfl⟩
abbrev main_cst_11 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_c_12 : Ref sig .tc := ⟨.hbm, 122, rfl⟩
abbrev main_v84 : Ref sig .tc := ⟨.hbm, 123, rfl⟩
abbrev main_v85 : Ref sig .tc := ⟨.hbm, 124, rfl⟩
abbrev main_c_13 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_14 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_15 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_16 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_17 : Ref sig .tc := ⟨.hbm, 158, rfl⟩
abbrev main_v115 : Ref sig .tc := ⟨.hbm, 159, rfl⟩
abbrev main_cst_18 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_19 : Ref sig .tc := ⟨.hbm, 167, rfl⟩
abbrev main_v122 : Ref sig .tc := ⟨.hbm, 168, rfl⟩
abbrev main_cst_20 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_21 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_c_22 : Ref sig .tc := ⟨.hbm, 188, rfl⟩
abbrev main_v140 : Ref sig .tc := ⟨.hbm, 189, rfl⟩
abbrev main_v141 : Ref sig .tc := ⟨.hbm, 190, rfl⟩
abbrev main_c_23 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_c_24 : Ref sig .tc := ⟨.hbm, 197, rfl⟩
abbrev main_v147 : Ref sig .tc := ⟨.hbm, 198, rfl⟩
abbrev main_v148 : Ref sig .tc := ⟨.hbm, 199, rfl⟩
abbrev main_c_25 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_cst_26 : Ref sig .tc := ⟨.hbm, 207, rfl⟩
abbrev main_v155 : Ref sig .tc := ⟨.hbm, 208, rfl⟩
abbrev main_cst_27 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_cst_28 : Ref sig .tc := ⟨.hbm, 214, rfl⟩
abbrev main_v160 : Ref sig .tc := ⟨.hbm, 215, rfl⟩
abbrev main_v161 : Ref sig .tc := ⟨.hbm, 216, rfl⟩
abbrev main_cst_29 : Ref sig .tc := ⟨.hbm, 217, rfl⟩
abbrev main_v162 : Ref sig .tc := ⟨.hbm, 218, rfl⟩
abbrev main_v163 : Ref sig .tc := ⟨.hbm, 219, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S1600000x1 : S_.BroadcastsInDim S1600000x1 (![] : Fin 0 → Fin S1600000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S64x64_0_1 : S1x64.BroadcastsInDim S64x64 (![0, 1] : Fin 2 → Fin S64x64.rank)
  concatenates_S100000x64_S64x64_S100064x64_d0 : Shape.Concatenates [S100000x64, S64x64] S100064x64 0
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1x64_S1600000x64_0_1 : S1x64.BroadcastsInDim S1600000x64 (![0, 1] : Fin 2 → Fin S1600000x64.rank)
  bcast_S1600000x1_S1600000x64_0_1 : S1600000x1.BroadcastsInDim S1600000x64 (![0, 1] : Fin 2 → Fin S1600000x64.rank)
  bcast_S_S100064x64 : S_.BroadcastsInDim S100064x64 (![] : Fin 0 → Fin S100064x64.rank)
  bcast_S_S100064 : S_.BroadcastsInDim S100064 (![] : Fin 0 → Fin S100064.rank)
  bcast_S100064_S100064x1_0 : S100064.BroadcastsInDim S100064x1 (![0] : Fin 1 → Fin S100064x1.rank)
  bcast_S100064x1_S100064x64_0_1 : S100064x1.BroadcastsInDim S100064x64 (![0, 1] : Fin 2 → Fin S100064x64.rank)
  reducesTo_S100064x64_S64_d0 : S100064x64.ReducesTo [0] S64
  h_S_ : 0 < S_.numel
  bcast_S_S64 : S_.BroadcastsInDim S64 (![] : Fin 0 → Fin S64.rank)
  bcast_S1x64_S100064x64_0_1 : S1x64.BroadcastsInDim S100064x64 (![0, 1] : Fin 2 → Fin S100064x64.rank)
  reducesTo_S1600000x64_S1600000_d1 : S1600000x64.ReducesTo [1] S1600000
  dot_S1600000x1_S1x1_S1600000x1_1_0_0_1_n_n_wf : DotDims.WF S1600000x1 S1x1 S1600000x1 [1] [0] [0] [1] [] []
  dot_S100000x1024_S1024x64_S100000x64_1_0_0_1_n_n_wf : DotDims.WF S100000x1024 S1024x64 S100000x64 [1] [0] [0] [1] [] []
  dot_S64x2048_S2048x64_S64x64_1_0_0_1_n_n_wf : DotDims.WF S64x2048 S2048x64 S64x64 [1] [0] [0] [1] [] []
  gather_S100064x64_S1600000x1_S1600000x64_1_0_n_n_0_1_164_wf : GatherDims.WF S100064x64 S1600000x1 S1600000x64 [1] [0] [] [0] [] 1 ![1, 64]
  dot_S1600000x64_S64x64_S1600000x64_1_0_0_1_n_n_wf : DotDims.WF S1600000x64 S64x64 S1600000x64 [1] [0] [0] [1] [] []
  dot_S1600000x1_S1x64_S1600000x64_1_0_0_1_n_n_wf : DotDims.WF S1600000x1 S1x64 S1600000x64 [1] [0] [0] [1] [] []
  scatter_S100064x64_S1600000x1_S1600000x64_1_0_0_1_wf : ScatterDims.WF S100064x64 S1600000x1 S1600000x64 [1] [0] [0] 1
  scatter_S100064_S1600000x1_S1600000_n_0_0_1_wf : ScatterDims.WF S100064 S1600000x1 S1600000 [] [0] [0] 1

variable [Facts₀]

def dot_S1600000x1_S1x1_S1600000x1_1_0_0_1_n_n : DotDims S1600000x1 S1x1 S1600000x1 where
  lhsContracting := [1]
  rhsContracting := [0]
  lhsNonContracting := [0]
  rhsNonContracting := [1]
  lhsBatch := []
  rhsBatch := []
  wf := dot_S1600000x1_S1x1_S1600000x1_1_0_0_1_n_n_wf
def dot_S100000x1024_S1024x64_S100000x64_1_0_0_1_n_n : DotDims S100000x1024 S1024x64 S100000x64 where
  lhsContracting := [1]
  rhsContracting := [0]
  lhsNonContracting := [0]
  rhsNonContracting := [1]
  lhsBatch := []
  rhsBatch := []
  wf := dot_S100000x1024_S1024x64_S100000x64_1_0_0_1_n_n_wf
def dot_S64x2048_S2048x64_S64x64_1_0_0_1_n_n : DotDims S64x2048 S2048x64 S64x64 where
  lhsContracting := [1]
  rhsContracting := [0]
  lhsNonContracting := [0]
  rhsNonContracting := [1]
  lhsBatch := []
  rhsBatch := []
  wf := dot_S64x2048_S2048x64_S64x64_1_0_0_1_n_n_wf
def gather_S100064x64_S1600000x1_S1600000x64_1_0_n_n_0_1_164 : GatherDims S100064x64 S1600000x1 S1600000x64 where
  offsetDims := [1]
  collapsedSliceDims := [0]
  operandBatchingDims := []
  startIndicesBatchingDims := []
  startIndexMap := [0]
  indexVectorDim := 1
  sliceSizes := ![1, 64]
  wf := gather_S100064x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x1_S1x64_S1600000x64_1_0_0_1_n_n : DotDims S1600000x1 S1x64 S1600000x64 where
  lhsContracting := [1]
  rhsContracting := [0]
  lhsNonContracting := [0]
  rhsNonContracting := [1]
  lhsBatch := []
  rhsBatch := []
  wf := dot_S1600000x1_S1x64_S1600000x64_1_0_0_1_n_n_wf
def scatter_S100064x64_S1600000x1_S1600000x64_1_0_0_1 : ScatterDims S100064x64 S1600000x1 S1600000x64 where
  updateWindowDims := [1]
  insertedWindowDims := [0]
  scatterDimsToOperandDims := [0]
  indexVectorDim := 1
  wf := scatter_S100064x64_S1600000x1_S1600000x64_1_0_0_1_wf
def scatter_S100064_S1600000x1_S1600000_n_0_0_1 : ScatterDims S100064 S1600000x1 S1600000 where
  updateWindowDims := []
  insertedWindowDims := [0]
  scatterDimsToOperandDims := [0]
  indexVectorDim := 1
  wf := scatter_S100064_S1600000x1_S1600000_n_0_0_1_wf

class Facts : Prop extends Facts₀ where

variable [Facts]
-- ==== Proof.KernelRun.lean ====
/-
  The idealized kernel program's run, with the final contents of EVERY unscoped buffer named.

  @main is eleven segments: stretches of host operations and three kernel regions.  The buffer contents at
  each segment boundary are a fold from the launch memory: a stretch of host operations applies its
  operations' pure functions, a region leaves each of its output arrays at what its grid points wrote back and
  every other buffer as it found it.  `W11` is the last of these valuations.  Every weakly fair execution from a
  memory with zero counters terminates without a fault, and in the final memory each unscoped buffer holds its
  `W11` contents; the result buffer and the argument arrays are read off this one statement.
-/
import proofs.«160139_j21938692948237_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with each unscoped buffer of each core at
    the contents the fold over the segments gives it: the launch over the eleven segments, the last thread
    state read against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The run in the shape the claim asks for: the result buffer at its `W11` contents, and each argument array as
    launched (no host operation and no region writes an argument, so the fold at an argument's buffer walks back
    to the launch memory). -/
theorem run_named : θ_run defs (onTc (τ := τ) (main (F := F))) ⟨m, fun _ => 0, ρ⟩ (fun r => ∀ c : Dev nD,
      r.2.mem ((c.tc : Thread nD τ).loc main_v140) = W11 m ρ c (Proc.devRef .tc main_v140)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c =>
      ⟨h c _ (mem_uc main_v140 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c),
       (h c _ (mem_uc main_arg19 (by decide))).trans (W11_main_arg19 m ρ c),
       (h c _ (mem_uc main_arg20 (by decide))).trans (W11_main_arg20 m ρ c),
       (h c _ (mem_uc main_arg21 (by decide))).trans (W11_main_arg21 m ρ c),
       (h c _ (mem_uc main_arg22 (by decide))).trans (W11_main_arg22 m ρ c),
       (h c _ (mem_uc main_arg23 (by decide))).trans (W11_main_arg23 m ρ c)⟩)
    (run_all m ρ)

end Cert.KernelIdeal.RunValue

end
-- ==== Proof.LibConcatCongr.lean ====
/-
  Concatenations with equal operands are equal. A concatenation takes, beside its list of operands, a proof about the
  operands' shapes, so a rewriting pass does not enter the operands by itself; these two congruences (two operands, four
  operands) let it. Nothing here mentions a program.
-/
import Idealize.ShloMosaic.Lib.Pipeline.Value

namespace Cert.Lib.ConcatCongr

open Idealize.ShloMosaic

/-- Two-operand concatenations with equal operands are equal. -/
theorem concatenate_pair_congr {α : Type} {t s₁ s₂ : Shape} (a : Fin t.rank) (x₁ : s₁.Idx → α) (x₂ : s₂.Idx → α)
    {x₁' : s₁.Idx → α} {x₂' : s₂.Idx → α}
    (h : Shape.Concatenates (([⟨s₁, x₁⟩, ⟨s₂, x₂⟩] : List ((s : Shape) × (s.Idx → α))).map (·.1)) t a)
    (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

/-- Four-operand concatenations with equal operands are equal. -/
theorem concatenate_quad_congr {α : Type} {t s₁ s₂ s₃ s₄ : Shape} (a : Fin t.rank)
    (x₁ : s₁.Idx → α) (x₂ : s₂.Idx → α) (x₃ : s₃.Idx → α) (x₄ : s₄.Idx → α)
    {x₁' : s₁.Idx → α} {x₂' : s₂.Idx → α} {x₃' : s₃.Idx → α} {x₄' : s₄.Idx → α}
    (h : Shape.Concatenates (([⟨s₁, x₁⟩, ⟨s₂, x₂⟩, ⟨s₃, x₃⟩, ⟨s₄, x₄⟩] : List ((s : Shape) × (s.Idx → α))).map (·.1)) t a)
    (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h
      = concatenate t a [⟨s₁, x₁'⟩, ⟨s₂, x₂'⟩, ⟨s₃, x₃'⟩, ⟨s₄, x₄'⟩] h := by
  subst e₁ e₂ e₃ e₄; rfl

end Cert.Lib.ConcatCongr
-- ==== Proof.ChainEntry0.lean ====
/-
  The idealized kernel program's buffers when its first kernel region is entered.

  Before the first region @main runs three stretches of host operations: it cuts the source and target rows
  out of the edge-index array, reads the visibility mask as numbers, runs the one-feature edge network (a 1×1
  product, a bias, and the leaky rectifier spelt as a comparison, a scaled copy and a selection), joins the
  edge network's column and the mask's column into one two-column array, and re-shapes the projection's bias
  vector to a 1×64 row.  Each buffer written there holds the same function of the argument arrays that the
  reference program computes for the corresponding value, and no argument array is touched.  Each statement
  below reads one buffer through the three stretches in a single rewriting pass; what is left is the
  composition of the same operations on both sides.
-/
import proofs.«160139_j21938692948237_2_alg».proof.Proof.Gen.KernelIdeal.Frame
import proofs.«160139_j21938692948237_2_alg».proof.Proof.RefRead
import proofs.«160139_j21938692948237_2_alg».proof.Proof.LibConcatCongr
import Idealize.ShloMosaic.PureOps.Ideal

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

attribute [local congr] Cert.Lib.ConcatCongr.concatenate_pair_congr

/-! ## At the entry of region 0 (after the first three stretches of host operations) -/

set_option maxHeartbeats 4000000 in
theorem e3_v1 : W3 (F := Ideal) m ρ c (Proc.devRef .tc main_v1) = (Cert.ReferenceIdeal.ReadP.val_main_v1 (F := Ideal) (m ((c : Thread nD τ).loc main_arg3))) := by
  show StableHlo.after hostOps0_2 (StableHlo.after hostOps0_1 (StableHlo.after hostOps0 (W0 m ρ c))) (Proc.devRef .tc main_v1) = _
  simp only [hostOps0, hostOps0_1, hostOps0_2]
  after_results_simp <;> rfl

set_option maxHeartbeats 4000000 in
theorem e3_v3 : W3 (F := Ideal) m ρ c (Proc.devRef .tc main_v3) = (Cert.ReferenceIdeal.ReadP.val_main_v3 (F := Ideal) (m ((c : Thread nD τ).loc main_arg3))) := by
  show StableHlo.after hostOps0_2 (StableHlo.after hostOps0_1 (StableHlo.after hostOps0 (W0 m ρ c))) (Proc.devRef .tc main_v3) = _
  simp only [hostOps0, hostOps0_1, hostOps0_2]
  after_results_simp <;> rfl

set_option maxHeartbeats 4000000 in
theorem e3_v4 : W3 (F := Ideal) m ρ c (Proc.devRef .tc main_v4) = (Cert.ReferenceIdeal.ReadP.val_main_v4 (F := Ideal) (m ((c : Thread nD τ).loc main_arg5))) := by
  show StableHlo.after hostOps0_2 (StableHlo.after hostOps0_1 (StableHlo.after hostOps0 (W0 m ρ c))) (Proc.devRef .tc main_v4) = _
  simp only [hostOps0, hostOps0_1, hostOps0_2]
  after_results_simp <;> rfl

set_option maxHeartbeats 4000000 in
theorem e3_v13 : W3 (F := Ideal) m ρ c (Proc.devRef .tc main_v13) = (Cert.ReferenceIdeal.ReadP.val_main_v13 (F := Ideal) (m ((c : Thread nD τ).loc main_arg2)) (m ((c : Thread nD τ).loc main_arg22)) (m ((c : Thread nD τ).loc main_arg23))) := by
  show StableHlo.after hostOps0_2 (StableHlo.after hostOps0_1 (StableHlo.after hostOps0 (W0 m ρ c))) (Proc.devRef .tc main_v13) = _
  simp only [hostOps0, hostOps0_1, hostOps0_2]
  after_results_simp <;> rfl

set_option maxHeartbeats 4000000 in
theorem e3_v15 : W3 (F := Ideal) m ρ c (Proc.devRef .tc main_v15) = (concatenate S1600000x2 1 [⟨S1600000x1, (Cert.ReferenceIdeal.ReadP.val_main_v13 (F := Ideal) (m ((c : Thread nD τ).loc main_arg2)) (m ((c : Thread nD τ).loc main_arg22)) (m ((c : Thread nD τ).loc main_arg23)))⟩, ⟨S1600000x1, (Cert.ReferenceIdeal.ReadP.val_main_v39 (F := Ideal) (m ((c : Thread nD τ).loc main_arg5)))⟩] concatenates_S1600000x1_S1600000x1_S1600000x2_d1) := by
  show StableHlo.after hostOps0_2 (StableHlo.after hostOps0_1 (StableHlo.after hostOps0 (W0 m ρ c))) (Proc.devRef .tc main_v15) = _
  simp only [hostOps0, hostOps0_1, hostOps0_2]
  after_results_simp <;> rfl

set_option maxHeartbeats 4000000 in
theorem e3_v16 : W3 (F := Ideal) m ρ c (Proc.devRef .tc main_v16) = (shapeCast S1x64 (m ((c : Thread nD τ).loc main_arg7)) shapeCasts_S64_S1x64) := by
  show StableHlo.after hostOps0_2 (StableHlo.after hostOps0_1 (StableHlo.after hostOps0 (W0 m ρ c))) (Proc.devRef .tc main_v16) = _
  simp only [hostOps0, hostOps0_1, hostOps0_2]
  after_results_simp <;> rfl

theorem e3_arg0 : W3 (F := Ideal) m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  simp only [hostOps0, hostOps0_1, hostOps0_2]
  after_results_simp <;> rfl

theorem e3_arg6 : W3 (F := Ideal) m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  simp only [hostOps0, hostOps0_1, hostOps0_2]
  after_results_simp <;> rfl

theorem e3_arg1 : W3 (F := Ideal) m ρ c (Proc.devRef .tc main_arg1) = (m ((c : Thread nD τ).loc main_arg1)) := by
  show StableHlo.after hostOps0_2 (StableHlo.after hostOps0_1 (StableHlo.after hostOps0 (W0 m ρ c))) (Proc.devRef .tc main_arg1) = _
  simp only [hostOps0, hostOps0_1, hostOps0_2]
  after_results_simp <;> rfl

theorem e3_arg8 : W3 (F := Ideal) m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  simp only [hostOps0, hostOps0_1, hostOps0_2]
  after_results_simp <;> rfl

theorem e3_arg9 : W3 (F := Ideal) m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  simp only [hostOps0, hostOps0_1, hostOps0_2]
  after_results_simp <;> rfl

theorem e3_arg10 : W3 (F := Ideal) m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  simp only [hostOps0, hostOps0_1, hostOps0_2]
  after_results_simp <;> rfl

theorem e3_arg11 : W3 (F := Ideal) m ρ c (Proc.devRef .tc main_arg11) = (m ((c : Thread nD τ).loc main_arg11)) := by
  show StableHlo.after hostOps0_2 (StableHlo.after hostOps0_1 (StableHlo.after hostOps0 (W0 m ρ c))) (Proc.devRef .tc main_arg11) = _
  simp only [hostOps0, hostOps0_1, hostOps0_2]
  after_results_simp <;> rfl

theorem e3_arg12 : W3 (F := Ideal) m ρ c (Proc.devRef .tc main_arg12) = (m ((c : Thread nD τ).loc main_arg12)) := by
  show StableHlo.after hostOps0_2 (StableHlo.after hostOps0_1 (StableHlo.after hostOps0 (W0 m ρ c))) (Proc.devRef .tc main_arg12) = _
  simp only [hostOps0, hostOps0_1, hostOps0_2]
  after_results_simp <;> rfl

theorem e3_arg13 : W3 (F := Ideal) m ρ c (Proc.devRef .tc main_arg13) = (m ((c : Thread nD τ).loc main_arg13)) := by
  show StableHlo.after hostOps0_2 (StableHlo.after hostOps0_1 (StableHlo.after hostOps0 (W0 m ρ c))) (Proc.devRef .tc main_arg13) = _
  simp only [hostOps0, hostOps0_1, hostOps0_2]
  after_results_simp <;> rfl

theorem e3_arg14 : W3 (F := Ideal) m ρ c (Proc.devRef .tc main_arg14) = (m ((c : Thread nD τ).loc main_arg14)) := by
  show StableHlo.after hostOps0_2 (StableHlo.after hostOps0_1 (StableHlo.after hostOps0 (W0 m ρ c))) (Proc.devRef .tc main_arg14) = _
  simp only [hostOps0, hostOps0_1, hostOps0_2]
  after_results_simp <;> rfl

theorem e3_arg15 : W3 (F := Ideal) m ρ c (Proc.devRef .tc main_arg15) = (m ((c : Thread nD τ).loc main_arg15)) := by
  show StableHlo.after hostOps0_2 (StableHlo.after hostOps0_1 (StableHlo.after hostOps0 (W0 m ρ c))) (Proc.devRef .tc main_arg15) = _
  simp only [hostOps0, hostOps0_1, hostOps0_2]
  after_results_simp <;> rfl

theorem e3_arg16 : W3 (F := Ideal) m ρ c (Proc.devRef .tc main_arg16) = (m ((c : Thread nD τ).loc main_arg16)) := by
  show StableHlo.after hostOps0_2 (StableHlo.after hostOps0_1 (StableHlo.after hostOps0 (W0 m ρ c))) (Proc.devRef .tc main_arg16) = _
  simp only [hostOps0, hostOps0_1, hostOps0_2]
  after_results_simp <;> rfl

theorem e3_arg17 : W3 (F := Ideal) m ρ c (Proc.devRef .tc main_arg17) = (m ((c : Thread nD τ).loc main_arg17)) := by
  show StableHlo.after hostOps0_2 (StableHlo.after hostOps0_1 (StableHlo.after hostOps0 (W0 m ρ c))) (Proc.devRef .tc main_arg17) = _
  simp only [hostOps0, hostOps0_1, hostOps0_2]
  after_results_simp <;> rfl

theorem e3_arg18 : W3 (F := Ideal) m ρ c (Proc.devRef .tc main_arg18) = (m ((c : Thread nD τ).loc main_arg18)) := by
  show StableHlo.after hostOps0_2 (StableHlo.after hostOps0_1 (StableHlo.after hostOps0 (W0 m ρ c))) (Proc.devRef .tc main_arg18) = _
  simp only [hostOps0, hostOps0_1, hostOps0_2]
  after_results_simp <;> rfl

theorem e3_arg19 : W3 (F := Ideal) m ρ c (Proc.devRef .tc main_arg19) = (m ((c : Thread nD τ).loc main_arg19)) := by
  show StableHlo.after hostOps0_2 (StableHlo.after hostOps0_1 (StableHlo.after hostOps0 (W0 m ρ c))) (Proc.devRef .tc main_arg19) = _
  simp only [hostOps0, hostOps0_1, hostOps0_2]
  after_results_simp <;> rfl

theorem e3_arg20 : W3 (F := Ideal) m ρ c (Proc.devRef .tc main_arg20) = (m ((c : Thread nD τ).loc main_arg20)) := by
  show StableHlo.after hostOps0_2 (StableHlo.after hostOps0_1 (StableHlo.after hostOps0 (W0 m ρ c))) (Proc.devRef .tc main_arg20) = _
  simp only [hostOps0, hostOps0_1, hostOps0_2]
  after_results_simp <;> rfl

theorem e3_arg21 : W3 (F := Ideal) m ρ c (Proc.devRef .tc main_arg21) = (m ((c : Thread nD τ).loc main_arg21)) := by
  show StableHlo.after hostOps0_2 (StableHlo.after hostOps0_1 (StableHlo.after hostOps0 (W0 m ρ c))) (Proc.devRef .tc main_arg21) = _
  simp only [hostOps0, hostOps0_1, hostOps0_2]
  after_results_simp <;> rfl

end Cert.KernelIdeal.Chain

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.ProjValue.lean ====
/-
  The projection region's output array, entry by entry.

  The region runs over 50 consecutive blocks of 2000 rows. For a block x (2000×1024), the whole matrix w (1024×64) and the
  whole row b (1×64) the body stores

      out(p, q) = Σ_k x(p, k) · w(k, q) + b(0, q)

  on the extended reals (the two changes of format in front of the product are the identity there). Block t of the input is
  rows 2000·t … 2000·t + 1999 and point t writes rows 2000·t … 2000·t + 1999 of the output, so what a point writes is that
  point's block of ONE function of the whole arrays, `projArr`; the 50 blocks cover the 100000 rows (row r lies in block
  r / 2000), and the output array after the region is `projArr` of the arrays as the region found them. Stated for any
  contents `V` of the buffers at the region's entry.
-/
import proofs.«160139_j21938692948237_2_alg».proof.Proof.Gen.KernelIdeal.Frame
import proofs.«160139_j21938692948237_2_alg».proof.Proof.LibBlockReads
import Idealize.ShloMosaic.Lib.Pipeline.Value
import Idealize.ShloMosaic.Lib.ValueIdx

noncomputable section

open scoped BigOperators

namespace Cert.KernelIdeal.ProjValue

open Cert.KernelIdeal Idealize.ShloMosaic Idealize.ShloMosaic.TcCoe Idealize.SL.Sem Idealize.ShloMosaic.ValueIdx
open Idealize.ShloMosaic.Pipeline (Dat)
open Cert.Lib.BlockReads

/-! ## The projection function -/

/-- The zero offsets of a whole-block access, as the constant function. -/
theorem hz : (![0, 0] : Fin 2 → Nat) = fun _ => 0 := funext fun a => by fin_cases a <;> rfl

/-- Row `p` of `x` through the matrix `w`, plus the bias row `b`, at column `q`. -/
def proj (x : S100000x1024.Idx → EReal) (w : S1024x64.Idx → EReal) (b : S1x64.Idx → EReal) (p : Fin 100000) (q : Fin 64) :
    EReal :=
  (∑ k : Fin 1024, x (ix2 p k) * w (ix2 k q)) + b (ix2 0 q)

/-- `proj` spelt out. -/
theorem proj_apply (x : S100000x1024.Idx → EReal) (w : S1024x64.Idx → EReal) (b : S1x64.Idx → EReal) (p : Fin 100000)
    (q : Fin 64) : proj x w b p q = (∑ k : Fin 1024, x (ix2 p k) * w (ix2 k q)) + b (ix2 0 q) := rfl

/-- The whole 100000×64 array of projections. -/
def projArr (x : S100000x1024.Idx → EReal) (w : S1024x64.Idx → EReal) (b : S1x64.Idx → EReal) : S100000x64.Idx → EReal :=
  fun i => proj x w b (i 0) (i 1)

/-- `projArr` at the index with coordinates `(p, q)`. -/
theorem projArr_apply (x : S100000x1024.Idx → EReal) (w : S1024x64.Idx → EReal) (b : S1x64.Idx → EReal) (p : Fin 100000)
    (q : Fin 64) : projArr x w b (ix2 p q) = proj x w b p q := rfl

/-! ## The region -/

/-- The body's stored value at row `p`, column `q` of a block: the matrix product into zeros is the sum over the
    contracted coordinate, the row broadcast reads the row at `q`; the changes of format are the identity on the
    extended reals. -/
theorem pay0_apply (x0 : Vec Ideal S2000x1024 .f32) (x1 : Vec Ideal S1024x64 .f32) (x2 : Vec Ideal S1x64 .f32)
    (p : Fin 2000) (q : Fin 64) :
    Gen.k0_pay1 x0 x1 x2 (ix2 p q) = (∑ k : Fin 1024, x0 (ix2 p k) * x1 (ix2 k q)) + x2 (ix2 0 q) := by
  unfold Gen.k0_pay1
  simp only [shapeCast_self]
  rw [addf_apply]
  rw [broadcast_row_apply x2 Gen.broadcasts_S1x64_S2000x64 p q,
    matmul_zero_rows_apply dot_S2000x1024_S1024x64_S2000x64_1_0_0_1_n_n rfl rfl rfl rfl rfl rfl none
      (truncf .bf16 x0 Gen.bitsLt_bf16_f32) (truncf .bf16 x1 Gen.bitsLt_bf16_f32) p q]
  rfl

/-- The block indices over the grid: the input moves with the output along the rows and stays at column block 0, the
    matrix and the row stay at block (0, 0), and the output's row block at point `t` is `t`. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Region0
variable (V : (c : Dev nD) → (b : Ref sig .tc) → Buf (Elt Ideal) ((c : Thread nD τ).loc b))

/-! Each input block read where the output's block sits. A block's coordinate in its array is the block index times the
    block size plus the coordinate inside the block; `j` is an index of the output's block at point `t`. -/

/-- The input's block at a point is the output block's rows of the input. -/
theorem rd0_0 (c : Dev nD) (t : Fin cfg0.N) (j : ((cfg0.win 3).xblock (grid0.coords t)).Idx) (k : Fin 1024) :
    Gen.iblk0 V c 0 t (ix2 (n0 := 2000) (n1 := 1024) (j 0) k)
      = V c main_arg0 (ix2 (n0 := 100000) (n1 := 1024) ((((cfg0.win 3).blk t).view.emb j) 0) k) := by
  obtain ⟨a0, a1, b0, b1, c0, c1, g0, g1⟩ := idx_facts0 t
  show V c main_arg0 (((cfg0.win 0).blk t).view.emb (ix2 (n0 := 2000) (n1 := 1024) (j 0) k)) = _
  refine congrArg (V c main_arg0) ?_
  funext a; apply Fin.ext
  match a with
  | ⟨0, _⟩ => show win0_0.index t (0 : Fin 2) * 2000 + 1 * (j 0).val = win0_3.index t (0 : Fin 2) * 2000 + 1 * (j 0).val; omega
  | ⟨1, _⟩ => show win0_0.index t (1 : Fin 2) * 1024 + 1 * k.val = k.val; omega

/-- The matrix's block at a point is the whole matrix. -/
theorem rd0_1 (c : Dev nD) (t : Fin cfg0.N) (j : ((cfg0.win 3).xblock (grid0.coords t)).Idx) (k : Fin 1024) :
    Gen.iblk0 V c 1 t (ix2 (n0 := 1024) (n1 := 64) k (j 1))
      = V c main_arg6 (ix2 (n0 := 1024) (n1 := 64) k ((((cfg0.win 3).blk t).view.emb j) 1)) := by
  obtain ⟨a0, a1, b0, b1, c0, c1, g0, g1⟩ := idx_facts0 t
  show V c main_arg6 (((cfg0.win 1).blk t).view.emb (ix2 (n0 := 1024) (n1 := 64) k (j 1))) = _
  refine congrArg (V c main_arg6) ?_
  funext a; apply Fin.ext
  match a with
  | ⟨0, _⟩ => show win0_1.index t (0 : Fin 2) * 1024 + 1 * k.val = k.val; omega
  | ⟨1, _⟩ => show win0_1.index t (1 : Fin 2) * 64 + 1 * (j 1).val = win0_3.index t (1 : Fin 2) * 64 + 1 * (j 1).val; omega

/-- The bias row's block at a point is the whole row. -/
theorem rd0_2 (c : Dev nD) (t : Fin cfg0.N) (j : ((cfg0.win 3).xblock (grid0.coords t)).Idx) :
    Gen.iblk0 V c 2 t (ix2 (n0 := 1) (n1 := 64) 0 (j 1))
      = V c main_v16 (ix2 (n0 := 1) (n1 := 64) 0 ((((cfg0.win 3).blk t).view.emb j) 1)) := by
  obtain ⟨a0, a1, b0, b1, c0, c1, g0, g1⟩ := idx_facts0 t
  show V c main_v16 (((cfg0.win 2).blk t).view.emb (ix2 (n0 := 1) (n1 := 64) 0 (j 1))) = _
  refine congrArg (V c main_v16) ?_
  funext a; apply Fin.ext
  match a with
  | ⟨0, _⟩ => show win0_2.index t (0 : Fin 2) * 1 + 1 * 0 = 0; omega
  | ⟨1, _⟩ => show win0_2.index t (1 : Fin 2) * 64 + 1 * (j 1).val = win0_3.index t (1 : Fin 2) * 64 + 1 * (j 1).val; omega

/-- What point `t` writes back is block `t` of `projArr` of the arrays as the region finds them: the stored value at
    (p, q) is the projection formula of the input blocks, and each input block reads its array where the output's block
    sits. -/
theorem flushed0_eq (c : Dev nD) (t : Fin cfg0.N) :
    (Gen.dat0 V c).flushed 3 t = ((cfg0.win 3).blk t).view.read (Elt Ideal)
      (projArr (V c main_arg0) (V c main_arg6) (V c main_v16)) := by
  show (cfg0.win 3).cut (grid0.coords t) ((Gen.dat0 V c).after 3 t) = _
  rw [Gen.after0_3]
  unfold Gen.out0_3
  rw [View.canon_unit_zero hz]
  simp only [View.ld_unit_zero (S := S2000x1024) hz, View.ld_unit_zero (S := S1024x64) hz,
    View.ld_unit_zero (S := S1x64) hz]
  funext j
  show Gen.k0_pay1 (Gen.iblk0 V c 0 t) (Gen.iblk0 V c 1 t) (Gen.iblk0 V c 2 t) j
      = proj (V c main_arg0) (V c main_arg6) (V c main_v16)
          ((((cfg0.win 3).blk t).view.emb j) 0) ((((cfg0.win 3).blk t).view.emb j) 1)
  refine ((congrArg (Gen.k0_pay1 (Gen.iblk0 V c 0 t) (Gen.iblk0 V c 1 t) (Gen.iblk0 V c 2 t))
    (eq_ix2 (n0 := 2000) (n1 := 64) j)).trans
    (pay0_apply (Gen.iblk0 V c 0 t) (Gen.iblk0 V c 1 t) (Gen.iblk0 V c 2 t) (j 0) (j 1))).trans ?_
  unfold proj
  simp only [rd0_0 V c t j, rd0_1 V c t j, rd0_2 V c t j]

/-- An index of the output array is in point `t`'s block iff each coordinate is in the block's range on its axis. -/
theorem mem_blk0 (t : Fin cfg0.N) (i : S100000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v17).slice (win0_3.rect t)).set ↔ _
  rw [View.set_slice_whole, Rect.mem_set_unit]
  exact Iff.rfl

/-- Every index of the output array is in some point's block: row `r` lies in block `r / 2000`, and there are
    50 · 2000 = 100000 rows. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 50 := Gen.N_0
  let t : Fin cfg0.N := ⟨(i 0).val / 2000, by show (i 0).val / 2000 < grid0.N; omega⟩
  obtain ⟨a0, a1, b0, b1, c0, c1, g0, g1⟩ := idx_facts0 t
  have ht : t.val = (i 0).val / 2000 := rfl
  refine ⟨t, Gen.flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 64 ≤ (i 1).val ∧ (i 1).val < win0_3.index t (1 : Fin 2) * 64 + 64; omega

/-- The output array after the region is `projArr` of the arrays as the region found them. -/
theorem proj_arr (c : Dev nD) : (Gen.dat0 V c).arrAt 3 cfg0.N
    = projArr (V c main_arg0) (V c main_arg6) (V c main_v16) :=
  (Gen.dat0 V c).arrAt_eq_of_cover 3 _ (fun t _ => flushed0_eq V c t) cover0

/-- Entry (p, q) of the output array after the region is row `p` through the matrix plus the bias, at column `q`. -/
theorem proj_entry (c : Dev nD) (p : Fin 100000) (q : Fin 64) :
    (Gen.dat0 (F := Ideal) V c).arrAt 3 cfg0.N (ix2 p q)
      = proj (V c main_arg0) (V c main_arg6) (V c main_v16) p q := by
  rw [proj_arr V c]
  rfl

end Region0

end Cert.KernelIdeal.ProjValue

end
-- ==== Proof.LibOuterTerms.lean ====
/-
  A column of one matrix beside a row of another, each stretched over a common a×b block, read at an index.

  A kernel that weights a block by "column e of an a×E matrix times row e of an E×b matrix" spells each factor as a
  unit-width slice followed by a broadcast. Read at (p, q) the stretched column is the matrix entry (p, e) and the
  stretched row is the matrix entry (e, q); their product is the (p, q) entry of the rank-one matrix they span.
  Nothing here mentions a program.
-/
import Idealize.ShloMosaic.PureOps.Ideal.Laws
import Idealize.ShloMosaic.Lib.ValueIdx
import Idealize.ShloMosaic.Lib.Pipeline.Value

namespace Cert.Lib.OuterTerms

open Idealize.ShloMosaic Idealize.ShloMosaic.ValueIdx

section Layout
variable {α : Type} {a b E : Nat}

/-- Column `e` of an a×E matrix, cut out as an a×1 slice and stretched over b columns, reads at (p, q) the matrix
    entry (p, e). -/
theorem col_stretch_apply (x : (⟨2, ![a, E]⟩ : Shape).Idx → α) (e : Nat) (he : e < E)
    (hs : (⟨2, ![a, E]⟩ : Shape).Slices ![0, e] ⟨2, ![a, 1]⟩)
    (hb : (⟨2, ![a, 1]⟩ : Shape).Broadcasts ⟨2, ![a, b]⟩) (p : Fin a) (q : Fin b) :
    broadcastTo ⟨2, ![a, b]⟩ (extractStridedSlice ⟨2, ![a, 1]⟩ ![0, e] x hs) hb (ix2 p q) = x (ix2 p ⟨e, he⟩) := by
  refine (broadcastTo_apply _ hb _ (ix2 p (0 : Fin 1)) fun ax => ?_).trans ?_
  · match ax with
    | ⟨0, _⟩ =>
      show p.val = if a = 1 then 0 else p.val
      split_ifs with ha
      · have := p.isLt; omega
      · rfl
    | ⟨1, _⟩ => rfl
  · exact extractStridedSlice_apply ![0, e] x hs (ix2 p (0 : Fin 1)) (ix2 p ⟨e, he⟩) fun ax => by
      match ax with
      | ⟨0, _⟩ => show p.val = 0 + p.val; omega
      | ⟨1, _⟩ => show e = e + 0; rfl

/-- Row `e` of an E×b matrix, cut out as a 1×b slice and stretched over a rows, reads at (p, q) the matrix
    entry (e, q). -/
theorem row_stretch_apply (y : (⟨2, ![E, b]⟩ : Shape).Idx → α) (e : Nat) (he : e < E)
    (hs : (⟨2, ![E, b]⟩ : Shape).Slices ![e, 0] ⟨2, ![1, b]⟩)
    (hb : (⟨2, ![1, b]⟩ : Shape).Broadcasts ⟨2, ![a, b]⟩) (p : Fin a) (q : Fin b) :
    broadcastTo ⟨2, ![a, b]⟩ (extractStridedSlice ⟨2, ![1, b]⟩ ![e, 0] y hs) hb (ix2 p q) = y (ix2 ⟨e, he⟩ q) := by
  refine (broadcastTo_apply _ hb _ (ix2 (0 : Fin 1) q) fun ax => ?_).trans ?_
  · match ax with
    | ⟨0, _⟩ => rfl
    | ⟨1, _⟩ =>
      show q.val = if b = 1 then 0 else q.val
      split_ifs with hb1
      · have := q.isLt; omega
      · rfl
  · exact extractStridedSlice_apply ![e, 0] y hs (ix2 (0 : Fin 1) q) (ix2 ⟨e, he⟩ q) fun ax => by
      match ax with
      | ⟨0, _⟩ => show e = e + 0; rfl
      | ⟨1, _⟩ => show q.val = 0 + q.val; omega

end Layout

section Product
variable {a b E : Nat} {φ : FTy}

/-- On the extended reals: the stretched column `e` of `x` times the stretched row `e` of `y` is at (p, q) the
    product x(p, e) · y(e, q), the (p, q) entry of the rank-one matrix spanned by that column and that row. -/
theorem outer_term_apply (x : FVec Ideal ⟨2, ![a, E]⟩ φ) (y : FVec Ideal ⟨2, ![E, b]⟩ φ) (e : Nat) (he : e < E)
    (hsx : (⟨2, ![a, E]⟩ : Shape).Slices ![0, e] ⟨2, ![a, 1]⟩) (hbx : (⟨2, ![a, 1]⟩ : Shape).Broadcasts ⟨2, ![a, b]⟩)
    (hsy : (⟨2, ![E, b]⟩ : Shape).Slices ![e, 0] ⟨2, ![1, b]⟩) (hby : (⟨2, ![1, b]⟩ : Shape).Broadcasts ⟨2, ![a, b]⟩)
    (p : Fin a) (q : Fin b) :
    mulf (broadcastTo ⟨2, ![a, b]⟩ (extractStridedSlice ⟨2, ![a, 1]⟩ ![0, e] x hsx) hbx)
         (broadcastTo ⟨2, ![a, b]⟩ (extractStridedSlice ⟨2, ![1, b]⟩ ![e, 0] y hsy) hby) (ix2 p q)
      = x (ix2 p ⟨e, he⟩) * y (ix2 ⟨e, he⟩ q) := by
  rw [mulf_apply, col_stretch_apply x e he hsx hbx p q, row_stretch_apply y e he hsy hby p q]

end Product

end Cert.Lib.OuterTerms
-- ==== Proof.MsgValue.lean ====
/-
  The edge-message arrays of the two message regions, entry by entry.

  Both regions run the same body over 200 consecutive blocks of 8000 edges. For a block of gathered node features
  xg (8000×64), edge weights ew (8000×2), a 64×64 matrix Wm and three rows bm, We, be (1×64), the body stores

      out(p, q) = ((( Σ_k xg(p, k) · Wm(k, q) + bm(0, q) ) + ew(p, 0) · We(0, q) ) + be(0, q) ) · ew(p, 1),

  on the extended reals and with exactly this grouping. Block t of the two per-edge arrays is rows 8000·t … 8000·t + 7999,
  the matrix and the rows are whole at every point, and point t writes rows 8000·t … 8000·t + 7999 of the output. So the
  value a point writes is that point's block of ONE function of the whole arrays, `msgArr`, the 200 blocks cover the
  1600000 rows (row r lies in block r / 8000), and the output array after the region is `msgArr` of the arrays as the
  region found them. Stated for any contents `V` of the buffers at the region's entry.
-/
import proofs.«160139_j21938692948237_2_alg».proof.Proof.Gen.KernelIdeal.Frame
import proofs.«160139_j21938692948237_2_alg».proof.Proof.LibBlockReads
import proofs.«160139_j21938692948237_2_alg».proof.Proof.LibOuterTerms
import Idealize.ShloMosaic.Lib.Pipeline.Value
import Idealize.ShloMosaic.Lib.ValueIdx

noncomputable section

open scoped BigOperators

namespace Cert.KernelIdeal.MsgValue

open Cert.KernelIdeal Idealize.ShloMosaic Idealize.ShloMosaic.TcCoe Idealize.SL.Sem Idealize.ShloMosaic.ValueIdx
open Idealize.ShloMosaic.Pipeline (Dat)
open Cert.Lib.BlockReads Cert.Lib.OuterTerms

/-! ## The message function -/

/-- The zero offsets of a whole-block access, as the constant function. -/
theorem hz : (![0, 0] : Fin 2 → Nat) = fun _ => 0 := funext fun a => by fin_cases a <;> rfl

/-- The message of edge `e` at feature `h`: the edge's gathered features through the matrix plus the first bias row, plus
    the edge's first weight times the weight row, plus the second bias row, all times the edge's second weight. -/
def msg (xg : S1600000x64.Idx → EReal) (ew : S1600000x2.Idx → EReal) (Wm : S64x64.Idx → EReal)
    (bm We be : S1x64.Idx → EReal) (e : Fin 1600000) (h : Fin 64) : EReal :=
  ((((∑ k : Fin 64, xg (ix2 e k) * Wm (ix2 k h)) + bm (ix2 0 h)) + ew (ix2 e 0) * We (ix2 0 h)) + be (ix2 0 h)) * ew (ix2 e 1)

/-- `msg` spelt out. -/
theorem msg_apply (xg : S1600000x64.Idx → EReal) (ew : S1600000x2.Idx → EReal) (Wm : S64x64.Idx → EReal)
    (bm We be : S1x64.Idx → EReal) (e : Fin 1600000) (h : Fin 64) :
    msg xg ew Wm bm We be e h
      = ((((∑ k : Fin 64, xg (ix2 e k) * Wm (ix2 k h)) + bm (ix2 0 h)) + ew (ix2 e 0) * We (ix2 0 h)) + be (ix2 0 h))
          * ew (ix2 e 1) := rfl

/-- The whole 1600000×64 array of messages. -/
def msgArr (xg : S1600000x64.Idx → EReal) (ew : S1600000x2.Idx → EReal) (Wm : S64x64.Idx → EReal)
    (bm We be : S1x64.Idx → EReal) : S1600000x64.Idx → EReal :=
  fun i => msg xg ew Wm bm We be (i 0) (i 1)

/-- `msgArr` at the index with coordinates `(e, h)`. -/
theorem msgArr_apply (xg : S1600000x64.Idx → EReal) (ew : S1600000x2.Idx → EReal) (Wm : S64x64.Idx → EReal)
    (bm We be : S1x64.Idx → EReal) (e : Fin 1600000) (h : Fin 64) :
    msgArr xg ew Wm bm We be (ix2 e h) = msg xg ew Wm bm We be e h := rfl

/-! ## The first message region -/

/-- The body's stored value at row `p`, column `q` of a block: the matrix product into zeros is the sum over the
    contracted coordinate, each row broadcast reads the row at `q`, each stretched column of the weights reads the
    weights at row `p`; the change of format on the matrix is the identity on the extended reals. -/
theorem pay1_apply (x0 : Vec Ideal S8000x64 .bf16) (x1 : Vec Ideal S8000x2 .f32) (x2 : Vec Ideal S64x64 .f32)
    (x3 x4 x5 : Vec Ideal S1x64 .f32) (p : Fin 8000) (q : Fin 64) :
    Gen.k1_pay1 x0 x1 x2 x3 x4 x5 (ix2 p q)
      = ((((∑ k : Fin 64, x0 (ix2 p k) * x2 (ix2 k q)) + x3 (ix2 0 q)) + x1 (ix2 p 0) * x4 (ix2 0 q)) + x5 (ix2 0 q))
          * x1 (ix2 p 1) := by
  unfold Gen.k1_pay1
  simp only [shapeCast_self]
  rw [mulf_apply, addf_apply, addf_apply, addf_apply, mulf_apply]
  rw [broadcast_row_apply x3 Gen.broadcasts_S1x64_S8000x64 p q,
    broadcast_row_apply x4 Gen.broadcasts_S1x64_S8000x64 p q,
    broadcast_row_apply x5 Gen.broadcasts_S1x64_S8000x64 p q,
    col_stretch_apply x1 0 (by decide) Gen.slices_S8000x2_o0_0_S8000x1 Gen.broadcasts_S8000x1_S8000x64 p q,
    col_stretch_apply x1 1 (by decide) Gen.slices_S8000x2_o0_1_S8000x1 Gen.broadcasts_S8000x1_S8000x64 p q,
    matmul_zero_rows_apply dot_S8000x64_S64x64_S8000x64_1_0_0_1_n_n rfl rfl rfl rfl rfl rfl none x0
      (truncf .bf16 x2 Gen.bitsLt_bf16_f32) p q]
  rfl

/-- The block indices over the grid: the two per-edge inputs move with the output along the rows and stay at column
    block 0, the matrix and the three rows stay at block (0, 0), and the output's row block at point `t` is `t`. -/
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section Region1
variable (V : (c : Dev nD) → (b : Ref sig .tc) → Buf (Elt Ideal) ((c : Thread nD τ).loc b))

/-! Each input block read where the output's block sits. A block's coordinate in its array is the block index times the
    block size plus the coordinate inside the block; `j` is an index of the output's block at point `t`. -/

/-- The features' block at a point is the output block's rows of the features. -/
theorem rd1_0 (c : Dev nD) (t : Fin cfg1.N) (j : ((cfg1.win 6).xblock (grid1.coords t)).Idx) (k : Fin 64) :
    Gen.iblk1 V c 0 t (ix2 (n0 := 8000) (n1 := 64) (j 0) k)
      = V c main_v33 (ix2 (n0 := 1600000) (n1 := 64) ((((cfg1.win 6).blk t).view.emb j) 0) k) := by
  obtain ⟨a0, a1, b0, b1, c0, c1, d0, d1, e0, e1, f0, f1, g0, g1⟩ := idx_facts1 t
  show V c main_v33 (((cfg1.win 0).blk t).view.emb (ix2 (n0 := 8000) (n1 := 64) (j 0) k)) = _
  refine congrArg (V c main_v33) ?_
  funext a; apply Fin.ext
  match a with
  | ⟨0, _⟩ => show win1_0.index t (0 : Fin 2) * 8000 + 1 * (j 0).val = win1_6.index t (0 : Fin 2) * 8000 + 1 * (j 0).val; omega
  | ⟨1, _⟩ => show win1_0.index t (1 : Fin 2) * 64 + 1 * k.val = k.val; omega

/-- The weights' block at a point is the output block's rows of the weights. -/
theorem rd1_1 (c : Dev nD) (t : Fin cfg1.N) (j : ((cfg1.win 6).xblock (grid1.coords t)).Idx) (u : Fin 2) :
    Gen.iblk1 V c 1 t (ix2 (n0 := 8000) (n1 := 2) (j 0) u)
      = V c main_v15 (ix2 (n0 := 1600000) (n1 := 2) ((((cfg1.win 6).blk t).view.emb j) 0) u) := by
  obtain ⟨a0, a1, b0, b1, c0, c1, d0, d1, e0, e1, f0, f1, g0, g1⟩ := idx_facts1 t
  show V c main_v15 (((cfg1.win 1).blk t).view.emb (ix2 (n0 := 8000) (n1 := 2) (j 0) u)) = _
  refine congrArg (V c main_v15) ?_
  funext a; apply Fin.ext
  match a with
  | ⟨0, _⟩ => show win1_1.index t (0 : Fin 2) * 8000 + 1 * (j 0).val = win1_6.index t (0 : Fin 2) * 8000 + 1 * (j 0).val; omega
  | ⟨1, _⟩ => show win1_1.index t (1 : Fin 2) * 2 + 1 * u.val = u.val; omega

/-- The matrix's block at a point is the whole matrix. -/
theorem rd1_2 (c : Dev nD) (t : Fin cfg1.N) (j : ((cfg1.win 6).xblock (grid1.coords t)).Idx) (k : Fin 64) :
    Gen.iblk1 V c 2 t (ix2 (n0 := 64) (n1 := 64) k (j 1))
      = V c main_arg10 (ix2 (n0 := 64) (n1 := 64) k ((((cfg1.win 6).blk t).view.emb j) 1)) := by
  obtain ⟨a0, a1, b0, b1, c0, c1, d0, d1, e0, e1, f0, f1, g0, g1⟩ := idx_facts1 t
  show V c main_arg10 (((cfg1.win 2).blk t).view.emb (ix2 (n0 := 64) (n1 := 64) k (j 1))) = _
  refine congrArg (V c main_arg10) ?_
  funext a; apply Fin.ext
  match a with
  | ⟨0, _⟩ => show win1_2.index t (0 : Fin 2) * 64 + 1 * k.val = k.val; omega
  | ⟨1, _⟩ => show win1_2.index t (1 : Fin 2) * 64 + 1 * (j 1).val = win1_6.index t (1 : Fin 2) * 64 + 1 * (j 1).val; omega

/-- The first bias row's block at a point is the whole row: read at column `j 1` it is the row at the output block's
    column. -/
theorem rd1_3 (c : Dev nD) (t : Fin cfg1.N) (j : ((cfg1.win 6).xblock (grid1.coords t)).Idx) :
    Gen.iblk1 V c 3 t (ix2 (n0 := 1) (n1 := 64) 0 (j 1))
      = V c main_v34 (ix2 (n0 := 1) (n1 := 64) 0 ((((cfg1.win 6).blk t).view.emb j) 1)) := by
  obtain ⟨a0, a1, b0, b1, c0, c1, d0, d1, e0, e1, f0, f1, g0, g1⟩ := idx_facts1 t
  show V c main_v34 (((cfg1.win 3).blk t).view.emb (ix2 (n0 := 1) (n1 := 64) 0 (j 1))) = _
  refine congrArg (V c main_v34) ?_
  funext a; apply Fin.ext
  match a with
  | ⟨0, _⟩ => show win1_3.index t (0 : Fin 2) * 1 + 1 * 0 = 0; omega
  | ⟨1, _⟩ => show win1_3.index t (1 : Fin 2) * 64 + 1 * (j 1).val = win1_6.index t (1 : Fin 2) * 64 + 1 * (j 1).val; omega

/-- The weight row's block at a point is the whole row: read at column `j 1` it is the row at the output block's
    column. -/
theorem rd1_4 (c : Dev nD) (t : Fin cfg1.N) (j : ((cfg1.win 6).xblock (grid1.coords t)).Idx) :
    Gen.iblk1 V c 4 t (ix2 (n0 := 1) (n1 := 64) 0 (j 1))
      = V c main_arg12 (ix2 (n0 := 1) (n1 := 64) 0 ((((cfg1.win 6).blk t).view.emb j) 1)) := by
  obtain ⟨a0, a1, b0, b1, c0, c1, d0, d1, e0, e1, f0, f1, g0, g1⟩ := idx_facts1 t
  show V c main_arg12 (((cfg1.win 4).blk t).view.emb (ix2 (n0 := 1) (n1 := 64) 0 (j 1))) = _
  refine congrArg (V c main_arg12) ?_
  funext a; apply Fin.ext
  match a with
  | ⟨0, _⟩ => show win1_4.index t (0 : Fin 2) * 1 + 1 * 0 = 0; omega
  | ⟨1, _⟩ => show win1_4.index t (1 : Fin 2) * 64 + 1 * (j 1).val = win1_6.index t (1 : Fin 2) * 64 + 1 * (j 1).val; omega

/-- The second bias row's block at a point is the whole row: read at column `j 1` it is the row at the output block's
    column. -/
theorem rd1_5 (c : Dev nD) (t : Fin cfg1.N) (j : ((cfg1.win 6).xblock (grid1.coords t)).Idx) :
    Gen.iblk1 V c 5 t (ix2 (n0 := 1) (n1 := 64) 0 (j 1))
      = V c main_v35 (ix2 (n0 := 1) (n1 := 64) 0 ((((cfg1.win 6).blk t).view.emb j) 1)) := by
  obtain ⟨a0, a1, b0, b1, c0, c1, d0, d1, e0, e1, f0, f1, g0, g1⟩ := idx_facts1 t
  show V c main_v35 (((cfg1.win 5).blk t).view.emb (ix2 (n0 := 1) (n1 := 64) 0 (j 1))) = _
  refine congrArg (V c main_v35) ?_
  funext a; apply Fin.ext
  match a with
  | ⟨0, _⟩ => show win1_5.index t (0 : Fin 2) * 1 + 1 * 0 = 0; omega
  | ⟨1, _⟩ => show win1_5.index t (1 : Fin 2) * 64 + 1 * (j 1).val = win1_6.index t (1 : Fin 2) * 64 + 1 * (j 1).val; omega

/-- What point `t` writes back is block `t` of `msgArr` of the arrays as the region finds them: the stored value at
    (p, q) is the message formula of the input blocks, and each input block reads its array where the output's block
    sits. -/
theorem flushed1_eq (c : Dev nD) (t : Fin cfg1.N) :
    (Gen.dat1 V c).flushed 6 t = ((cfg1.win 6).blk t).view.read (Elt Ideal)
      (msgArr (V c main_v33) (V c main_v15) (V c main_arg10) (V c main_v34) (V c main_arg12) (V c main_v35)) := by
  show (cfg1.win 6).cut (grid1.coords t) ((Gen.dat1 V c).after 6 t) = _
  rw [Gen.after1_6]
  unfold Gen.out1_6
  rw [View.canon_unit_zero hz]
  simp only [View.ld_unit_zero (S := S8000x64) hz, View.ld_unit_zero (S := S8000x2) hz,
    View.ld_unit_zero (S := S64x64) hz, View.ld_unit_zero (S := S1x64) hz]
  funext j
  show Gen.k1_pay1 (Gen.iblk1 V c 0 t) (Gen.iblk1 V c 1 t) (Gen.iblk1 V c 2 t) (Gen.iblk1 V c 3 t) (Gen.iblk1 V c 4 t)
        (Gen.iblk1 V c 5 t) j
      = msg (V c main_v33) (V c main_v15) (V c main_arg10) (V c main_v34) (V c main_arg12) (V c main_v35)
          ((((cfg1.win 6).blk t).view.emb j) 0) ((((cfg1.win 6).blk t).view.emb j) 1)
  refine ((congrArg (Gen.k1_pay1 (Gen.iblk1 V c 0 t) (Gen.iblk1 V c 1 t) (Gen.iblk1 V c 2 t) (Gen.iblk1 V c 3 t)
    (Gen.iblk1 V c 4 t) (Gen.iblk1 V c 5 t)) (eq_ix2 (n0 := 8000) (n1 := 64) j)).trans
    (pay1_apply (Gen.iblk1 V c 0 t) (Gen.iblk1 V c 1 t) (Gen.iblk1 V c 2 t) (Gen.iblk1 V c 3 t)
    (Gen.iblk1 V c 4 t) (Gen.iblk1 V c 5 t) (j 0) (j 1))).trans ?_
  unfold msg
  simp only [rd1_0 V c t j, rd1_1 V c t j, rd1_2 V c t j, rd1_3 V c t j, rd1_4 V c t j, rd1_5 V c t j]

/-- An index of the output array is in point `t`'s block iff each coordinate is in the block's range on its axis. -/
theorem mem_blk1 (t : Fin cfg1.N) (i : S1600000x64.Idx) :
    i ∈ ((cfg1.win 6).blk t).view.set ↔ ∀ a : Fin 2, win1_6.index t a * S8000x64.size a ≤ (i a).val
      ∧ (i a).val < win1_6.index t a * S8000x64.size a + S8000x64.size a := by
  show i ∈ ((View.whole main_v36).slice (win1_6.rect t)).set ↔ _
  rw [View.set_slice_whole, Rect.mem_set_unit]
  exact Iff.rfl

/-- Every index of the output array is in some point's block: row `r` lies in block `r / 8000`, and there are
    200 · 8000 = 1600000 rows. -/
theorem cover1 (i : S1600000x64.Idx) :
    ∃ t : Fin cfg1.N, (cfg1.win 6).flush t = true ∧ i ∈ ((cfg1.win 6).blk t).view.set := by
  have hi0 : (i 0).val < 1600000 := (i 0).isLt
  have hi1 : (i 1).val < 64 := (i 1).isLt
  have hN : grid1.N = 200 := Gen.N_1
  let t : Fin cfg1.N := ⟨(i 0).val / 8000, by show (i 0).val / 8000 < grid1.N; omega⟩
  obtain ⟨a0, a1, b0, b1, c0, c1, d0, d1, e0, e1, f0, f1, g0, g1⟩ := idx_facts1 t
  have ht : t.val = (i 0).val / 8000 := rfl
  refine ⟨t, Gen.flush1_6 t, ?_⟩
  rw [mem_blk1]
  intro a
  match a with
  | ⟨0, _⟩ => show win1_6.index t (0 : Fin 2) * 8000 ≤ (i 0).val ∧ (i 0).val < win1_6.index t (0 : Fin 2) * 8000 + 8000; omega
  | ⟨1, _⟩ => show win1_6.index t (1 : Fin 2) * 64 ≤ (i 1).val ∧ (i 1).val < win1_6.index t (1 : Fin 2) * 64 + 64; omega

/-- The output array after the region is `msgArr` of the arrays as the region found them. -/
theorem msg1_arr (c : Dev nD) : (Gen.dat1 V c).arrAt 6 cfg1.N
    = msgArr (V c main_v33) (V c main_v15) (V c main_arg10) (V c main_v34) (V c main_arg12) (V c main_v35) :=
  (Gen.dat1 V c).arrAt_eq_of_cover 6 _ (fun t _ => flushed1_eq V c t) cover1

/-- Entry (e, h) of the output array after the region is the message of edge `e` at feature `h`. -/
theorem msg1_entry (c : Dev nD) (e : Fin 1600000) (h : Fin 64) :
    (Gen.dat1 (F := Ideal) V c).arrAt 6 cfg1.N (ix2 e h)
      = msg (V c main_v33) (V c main_v15) (V c main_arg10) (V c main_v34) (V c main_arg12) (V c main_v35) e h := by
  rw [msg1_arr V c]
  rfl

end Region1

/-! ## The second message region -/

/-- The body's stored value at row `p`, column `q` of a block: the matrix product into zeros is the sum over the
    contracted coordinate, each row broadcast reads the row at `q`, each stretched column of the weights reads the
    weights at row `p`; the change of format on the matrix is the identity on the extended reals. -/
theorem pay2_apply (x0 : Vec Ideal S8000x64 .bf16) (x1 : Vec Ideal S8000x2 .f32) (x2 : Vec Ideal S64x64 .f32)
    (x3 x4 x5 : Vec Ideal S1x64 .f32) (p : Fin 8000) (q : Fin 64) :
    Gen.k2_pay1 x0 x1 x2 x3 x4 x5 (ix2 p q)
      = ((((∑ k : Fin 64, x0 (ix2 p k) * x2 (ix2 k q)) + x3 (ix2 0 q)) + x1 (ix2 p 0) * x4 (ix2 0 q)) + x5 (ix2 0 q))
          * x1 (ix2 p 1) := by
  unfold Gen.k2_pay1
  simp only [shapeCast_self]
  rw [mulf_apply, addf_apply, addf_apply, addf_apply, mulf_apply]
  rw [broadcast_row_apply x3 Gen.broadcasts_S1x64_S8000x64 p q,
    broadcast_row_apply x4 Gen.broadcasts_S1x64_S8000x64 p q,
    broadcast_row_apply x5 Gen.broadcasts_S1x64_S8000x64 p q,
    col_stretch_apply x1 0 (by decide) Gen.slices_S8000x2_o0_0_S8000x1 Gen.broadcasts_S8000x1_S8000x64 p q,
    col_stretch_apply x1 1 (by decide) Gen.slices_S8000x2_o0_1_S8000x1 Gen.broadcasts_S8000x1_S8000x64 p q,
    matmul_zero_rows_apply dot_S8000x64_S64x64_S8000x64_1_0_0_1_n_n rfl rfl rfl rfl rfl rfl none x0
      (truncf .bf16 x2 Gen.bitsLt_bf16_f32) p q]
  rfl

/-- The block indices over the grid: the two per-edge inputs move with the output along the rows and stay at column
    block 0, the matrix and the three rows stay at block (0, 0), and the output's row block at point `t` is `t`. -/
theorem idx_facts2 : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

section Region2
variable (V : (c : Dev nD) → (b : Ref sig .tc) → Buf (Elt Ideal) ((c : Thread nD τ).loc b))

/-! Each input block read where the output's block sits. A block's coordinate in its array is the block index times the
    block size plus the coordinate inside the block; `j` is an index of the output's block at point `t`. -/

/-- The features' block at a point is the output block's rows of the features. -/
theorem rd2_0 (c : Dev nD) (t : Fin cfg2.N) (j : ((cfg2.win 6).xblock (grid2.coords t)).Idx) (k : Fin 64) :
    Gen.iblk2 V c 0 t (ix2 (n0 := 8000) (n1 := 64) (j 0) k)
      = V c main_v83 (ix2 (n0 := 1600000) (n1 := 64) ((((cfg2.win 6).blk t).view.emb j) 0) k) := by
  obtain ⟨a0, a1, b0, b1, c0, c1, d0, d1, e0, e1, f0, f1, g0, g1⟩ := idx_facts2 t
  show V c main_v83 (((cfg2.win 0).blk t).view.emb (ix2 (n0 := 8000) (n1 := 64) (j 0) k)) = _
  refine congrArg (V c main_v83) ?_
  funext a; apply Fin.ext
  match a with
  | ⟨0, _⟩ => show win2_0.index t (0 : Fin 2) * 8000 + 1 * (j 0).val = win2_6.index t (0 : Fin 2) * 8000 + 1 * (j 0).val; omega
  | ⟨1, _⟩ => show win2_0.index t (1 : Fin 2) * 64 + 1 * k.val = k.val; omega

/-- The weights' block at a point is the output block's rows of the weights. -/
theorem rd2_1 (c : Dev nD) (t : Fin cfg2.N) (j : ((cfg2.win 6).xblock (grid2.coords t)).Idx) (u : Fin 2) :
    Gen.iblk2 V c 1 t (ix2 (n0 := 8000) (n1 := 2) (j 0) u)
      = V c main_v15 (ix2 (n0 := 1600000) (n1 := 2) ((((cfg2.win 6).blk t).view.emb j) 0) u) := by
  obtain ⟨a0, a1, b0, b1, c0, c1, d0, d1, e0, e1, f0, f1, g0, g1⟩ := idx_facts2 t
  show V c main_v15 (((cfg2.win 1).blk t).view.emb (ix2 (n0 := 8000) (n1 := 2) (j 0) u)) = _
  refine congrArg (V c main_v15) ?_
  funext a; apply Fin.ext
  match a with
  | ⟨0, _⟩ => show win2_1.index t (0 : Fin 2) * 8000 + 1 * (j 0).val = win2_6.index t (0 : Fin 2) * 8000 + 1 * (j 0).val; omega
  | ⟨1, _⟩ => show win2_1.index t (1 : Fin 2) * 2 + 1 * u.val = u.val; omega

/-- The matrix's block at a point is the whole matrix. -/
theorem rd2_2 (c : Dev nD) (t : Fin cfg2.N) (j : ((cfg2.win 6).xblock (grid2.coords t)).Idx) (k : Fin 64) :
    Gen.iblk2 V c 2 t (ix2 (n0 := 64) (n1 := 64) k (j 1))
      = V c main_arg14 (ix2 (n0 := 64) (n1 := 64) k ((((cfg2.win 6).blk t).view.emb j) 1)) := by
  obtain ⟨a0, a1, b0, b1, c0, c1, d0, d1, e0, e1, f0, f1, g0, g1⟩ := idx_facts2 t
  show V c main_arg14 (((cfg2.win 2).blk t).view.emb (ix2 (n0 := 64) (n1 := 64) k (j 1))) = _
  refine congrArg (V c main_arg14) ?_
  funext a; apply Fin.ext
  match a with
  | ⟨0, _⟩ => show win2_2.index t (0 : Fin 2) * 64 + 1 * k.val = k.val; omega
  | ⟨1, _⟩ => show win2_2.index t (1 : Fin 2) * 64 + 1 * (j 1).val = win2_6.index t (1 : Fin 2) * 64 + 1 * (j 1).val; omega

/-- The first bias row's block at a point is the whole row: read at column `j 1` it is the row at the output block's
    column. -/
theorem rd2_3 (c : Dev nD) (t : Fin cfg2.N) (j : ((cfg2.win 6).xblock (grid2.coords t)).Idx) :
    Gen.iblk2 V c 3 t (ix2 (n0 := 1) (n1 := 64) 0 (j 1))
      = V c main_v84 (ix2 (n0 := 1) (n1 := 64) 0 ((((cfg2.win 6).blk t).view.emb j) 1)) := by
  obtain ⟨a0, a1, b0, b1, c0, c1, d0, d1, e0, e1, f0, f1, g0, g1⟩ := idx_facts2 t
  show V c main_v84 (((cfg2.win 3).blk t).view.emb (ix2 (n0 := 1) (n1 := 64) 0 (j 1))) = _
  refine congrArg (V c main_v84) ?_
  funext a; apply Fin.ext
  match a with
  | ⟨0, _⟩ => show win2_3.index t (0 : Fin 2) * 1 + 1 * 0 = 0; omega
  | ⟨1, _⟩ => show win2_3.index t (1 : Fin 2) * 64 + 1 * (j 1).val = win2_6.index t (1 : Fin 2) * 64 + 1 * (j 1).val; omega

/-- The weight row's block at a point is the whole row: read at column `j 1` it is the row at the output block's
    column. -/
theorem rd2_4 (c : Dev nD) (t : Fin cfg2.N) (j : ((cfg2.win 6).xblock (grid2.coords t)).Idx) :
    Gen.iblk2 V c 4 t (ix2 (n0 := 1) (n1 := 64) 0 (j 1))
      = V c main_arg16 (ix2 (n0 := 1) (n1 := 64) 0 ((((cfg2.win 6).blk t).view.emb j) 1)) := by
  obtain ⟨a0, a1, b0, b1, c0, c1, d0, d1, e0, e1, f0, f1, g0, g1⟩ := idx_facts2 t
  show V c main_arg16 (((cfg2.win 4).blk t).view.emb (ix2 (n0 := 1) (n1 := 64) 0 (j 1))) = _
  refine congrArg (V c main_arg16) ?_
  funext a; apply Fin.ext
  match a with
  | ⟨0, _⟩ => show win2_4.index t (0 : Fin 2) * 1 + 1 * 0 = 0; omega
  | ⟨1, _⟩ => show win2_4.index t (1 : Fin 2) * 64 + 1 * (j 1).val = win2_6.index t (1 : Fin 2) * 64 + 1 * (j 1).val; omega

/-- The second bias row's block at a point is the whole row: read at column `j 1` it is the row at the output block's
    column. -/
theorem rd2_5 (c : Dev nD) (t : Fin cfg2.N) (j : ((cfg2.win 6).xblock (grid2.coords t)).Idx) :
    Gen.iblk2 V c 5 t (ix2 (n0 := 1) (n1 := 64) 0 (j 1))
      = V c main_v85 (ix2 (n0 := 1) (n1 := 64) 0 ((((cfg2.win 6).blk t).view.emb j) 1)) := by
  obtain ⟨a0, a1, b0, b1, c0, c1, d0, d1, e0, e1, f0, f1, g0, g1⟩ := idx_facts2 t
  show V c main_v85 (((cfg2.win 5).blk t).view.emb (ix2 (n0 := 1) (n1 := 64) 0 (j 1))) = _
  refine congrArg (V c main_v85) ?_
  funext a; apply Fin.ext
  match a with
  | ⟨0, _⟩ => show win2_5.index t (0 : Fin 2) * 1 + 1 * 0 = 0; omega
  | ⟨1, _⟩ => show win2_5.index t (1 : Fin 2) * 64 + 1 * (j 1).val = win2_6.index t (1 : Fin 2) * 64 + 1 * (j 1).val; omega

/-- What point `t` writes back is block `t` of `msgArr` of the arrays as the region finds them: the stored value at
    (p, q) is the message formula of the input blocks, and each input block reads its array where the output's block
    sits. -/
theorem flushed2_eq (c : Dev nD) (t : Fin cfg2.N) :
    (Gen.dat2 V c).flushed 6 t = ((cfg2.win 6).blk t).view.read (Elt Ideal)
      (msgArr (V c main_v83) (V c main_v15) (V c main_arg14) (V c main_v84) (V c main_arg16) (V c main_v85)) := by
  show (cfg2.win 6).cut (grid2.coords t) ((Gen.dat2 V c).after 6 t) = _
  rw [Gen.after2_6]
  unfold Gen.out2_6
  rw [View.canon_unit_zero hz]
  simp only [View.ld_unit_zero (S := S8000x64) hz, View.ld_unit_zero (S := S8000x2) hz,
    View.ld_unit_zero (S := S64x64) hz, View.ld_unit_zero (S := S1x64) hz]
  funext j
  show Gen.k2_pay1 (Gen.iblk2 V c 0 t) (Gen.iblk2 V c 1 t) (Gen.iblk2 V c 2 t) (Gen.iblk2 V c 3 t) (Gen.iblk2 V c 4 t)
        (Gen.iblk2 V c 5 t) j
      = msg (V c main_v83) (V c main_v15) (V c main_arg14) (V c main_v84) (V c main_arg16) (V c main_v85)
          ((((cfg2.win 6).blk t).view.emb j) 0) ((((cfg2.win 6).blk t).view.emb j) 1)
  refine ((congrArg (Gen.k2_pay1 (Gen.iblk2 V c 0 t) (Gen.iblk2 V c 1 t) (Gen.iblk2 V c 2 t) (Gen.iblk2 V c 3 t)
    (Gen.iblk2 V c 4 t) (Gen.iblk2 V c 5 t)) (eq_ix2 (n0 := 8000) (n1 := 64) j)).trans
    (pay2_apply (Gen.iblk2 V c 0 t) (Gen.iblk2 V c 1 t) (Gen.iblk2 V c 2 t) (Gen.iblk2 V c 3 t)
    (Gen.iblk2 V c 4 t) (Gen.iblk2 V c 5 t) (j 0) (j 1))).trans ?_
  unfold msg
  simp only [rd2_0 V c t j, rd2_1 V c t j, rd2_2 V c t j, rd2_3 V c t j, rd2_4 V c t j, rd2_5 V c t j]

/-- An index of the output array is in point `t`'s block iff each coordinate is in the block's range on its axis. -/
theorem mem_blk2 (t : Fin cfg2.N) (i : S1600000x64.Idx) :
    i ∈ ((cfg2.win 6).blk t).view.set ↔ ∀ a : Fin 2, win2_6.index t a * S8000x64.size a ≤ (i a).val
      ∧ (i a).val < win2_6.index t a * S8000x64.size a + S8000x64.size a := by
  show i ∈ ((View.whole main_v86).slice (win2_6.rect t)).set ↔ _
  rw [View.set_slice_whole, Rect.mem_set_unit]
  exact Iff.rfl

/-- Every index of the output array is in some point's block: row `r` lies in block `r / 8000`, and there are
    200 · 8000 = 1600000 rows. -/
theorem cover2 (i : S1600000x64.Idx) :
    ∃ t : Fin cfg2.N, (cfg2.win 6).flush t = true ∧ i ∈ ((cfg2.win 6).blk t).view.set := by
  have hi0 : (i 0).val < 1600000 := (i 0).isLt
  have hi1 : (i 1).val < 64 := (i 1).isLt
  have hN : grid2.N = 200 := Gen.N_2
  let t : Fin cfg2.N := ⟨(i 0).val / 8000, by show (i 0).val / 8000 < grid2.N; omega⟩
  obtain ⟨a0, a1, b0, b1, c0, c1, d0, d1, e0, e1, f0, f1, g0, g1⟩ := idx_facts2 t
  have ht : t.val = (i 0).val / 8000 := rfl
  refine ⟨t, Gen.flush2_6 t, ?_⟩
  rw [mem_blk2]
  intro a
  match a with
  | ⟨0, _⟩ => show win2_6.index t (0 : Fin 2) * 8000 ≤ (i 0).val ∧ (i 0).val < win2_6.index t (0 : Fin 2) * 8000 + 8000; omega
  | ⟨1, _⟩ => show win2_6.index t (1 : Fin 2) * 64 ≤ (i 1).val ∧ (i 1).val < win2_6.index t (1 : Fin 2) * 64 + 64; omega

/-- The output array after the region is `msgArr` of the arrays as the region found them. -/
theorem msg2_arr (c : Dev nD) : (Gen.dat2 V c).arrAt 6 cfg2.N
    = msgArr (V c main_v83) (V c main_v15) (V c main_arg14) (V c main_v84) (V c main_arg16) (V c main_v85) :=
  (Gen.dat2 V c).arrAt_eq_of_cover 6 _ (fun t _ => flushed2_eq V c t) cover2

/-- Entry (e, h) of the output array after the region is the message of edge `e` at feature `h`. -/
theorem msg2_entry (c : Dev nD) (e : Fin 1600000) (h : Fin 64) :
    (Gen.dat2 (F := Ideal) V c).arrAt 6 cfg2.N (ix2 e h)
      = msg (V c main_v83) (V c main_v15) (V c main_arg14) (V c main_v84) (V c main_arg16) (V c main_v85) e h := by
  rw [msg2_arr V c]
  rfl

end Region2

end Cert.KernelIdeal.MsgValue

end
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«160139_j21938692948237_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«160139_j21938692948237_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibHostSpellings.lean ====
/-
  The reference program's spellings of the two kernel computations, read at one entry, on the extended reals.

  A dense layer as the host writes it — a product with one contracted axis, plus the bias vector broadcast to a
  1×n row and then to every row — has at entry (p, q) the sum over k of x(p,k)·w(k,q), plus b(q).
  The edge message as the host writes it — the product of the gathered rows with the 64×64 weights, plus a bias
  row, plus the product of the one-column edge feature with the 1×64 edge weights (a contraction over ONE
  coordinate, so a single product), plus a second bias row, the whole scaled by the visibility column broadcast
  along the features — has at entry (e, h)
      ((((Σₖ xg(e,k)·Wm(k,h)) + bm(h)) + ea(e,0)·We(0,h)) + be(h)) · wc(e,0),
  with the additions and the product grouped exactly so: nothing is re-associated, so no finiteness is used.
  A two-column array made by joining two one-column arrays side by side reads its first column from the first
  piece and its second column from the second.  Nothing here mentions a program.
-/
import proofs.«160139_j21938692948237_2_alg».proof.Proof.LibMatProd
import proofs.«160139_j21938692948237_2_alg».proof.Proof.LibRowVector
import proofs.«160139_j21938692948237_2_alg».proof.Proof.LibRowReductions
import Idealize.ShloMosaic.Lib.Pipeline.Value
import Idealize.ShloMosaic.Lib.ValueIdx
import Idealize.ShloMosaic.PureOps.Ideal.Laws

set_option maxRecDepth 16384

noncomputable section

open scoped BigOperators

namespace Cert.Lib.HostSpellings

open Idealize.ShloMosaic Idealize.ShloMosaic.ValueIdx Cert.Lib.MatProd Cert.Lib.RowReductions

variable {M K N : Nat}

/-- The host's dense layer at an entry: the sum over the contracted coordinate, plus the bias entry. -/
theorem hostAffine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (h1 : (⟨1, ![N]⟩ : Shape).BroadcastsInDim ⟨2, ![1, N]⟩ ![1])
    (h2 : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨1, ![N]⟩ .f32)
    (p : Fin M) (q : Fin N) :
    addf (Host.dotGeneral d none x w) (broadcastInDim ⟨2, ![M, N]⟩ ![0, 1] h2 (broadcastInDim ⟨2, ![1, N]⟩ ![1] h1 b)) (ix2 p q)
      = (∑ k : Fin K, x (ix2 p k) * w (ix2 k q)) + b (ix1 q) := by
  rw [addf_apply]
  simp only [Host.dotGeneral]
  rw [dotGeneral_eq_matProd d hlc hrc hln hrn hlb hrb, matProd_apply,
    Cert.Lib.RowVector.bcastInDim_rows_apply, Cert.Lib.RowVector.bcastInDim_eq_asRow, Cert.Lib.RowVector.asRow_apply]

/-- The host's edge message at an entry. -/
theorem hostMessage_apply {E H H' : Nat} (d1 : DotDims ⟨2, ![E, H]⟩ ⟨2, ![H, H']⟩ ⟨2, ![E, H']⟩)
    (hlc : d1.lhsContracting = [1]) (hrc : d1.rhsContracting = [0]) (hln : d1.lhsNonContracting = [0])
    (hrn : d1.rhsNonContracting = [1]) (hlb : d1.lhsBatch = []) (hrb : d1.rhsBatch = [])
    (d2 : DotDims ⟨2, ![E, 1]⟩ ⟨2, ![1, H']⟩ ⟨2, ![E, H']⟩)
    (hlc' : d2.lhsContracting = [1]) (hrc' : d2.rhsContracting = [0]) (hln' : d2.lhsNonContracting = [0])
    (hrn' : d2.rhsNonContracting = [1]) (hlb' : d2.lhsBatch = []) (hrb' : d2.rhsBatch = [])
    (h1 : (⟨1, ![H']⟩ : Shape).BroadcastsInDim ⟨2, ![1, H']⟩ ![1])
    (h2 : (⟨2, ![1, H']⟩ : Shape).BroadcastsInDim ⟨2, ![E, H']⟩ ![0, 1])
    (h3 : (⟨2, ![E, 1]⟩ : Shape).BroadcastsInDim ⟨2, ![E, H']⟩ ![0, 1])
    (xg : FVec Ideal ⟨2, ![E, H]⟩ .f32) (Wm : FVec Ideal ⟨2, ![H, H']⟩ .f32) (bm : FVec Ideal ⟨1, ![H']⟩ .f32)
    (ea : FVec Ideal ⟨2, ![E, 1]⟩ .f32) (We : FVec Ideal ⟨2, ![1, H']⟩ .f32) (be : FVec Ideal ⟨1, ![H']⟩ .f32)
    (wc : FVec Ideal ⟨2, ![E, 1]⟩ .f32) (e : Fin E) (h : Fin H') :
    mulf (addf (addf (addf (Host.dotGeneral d1 none xg Wm)
        (broadcastInDim ⟨2, ![E, H']⟩ ![0, 1] h2 (broadcastInDim ⟨2, ![1, H']⟩ ![1] h1 bm)))
        (Host.dotGeneral d2 none ea We))
        (broadcastInDim ⟨2, ![E, H']⟩ ![0, 1] h2 (broadcastInDim ⟨2, ![1, H']⟩ ![1] h1 be)))
      (broadcastInDim ⟨2, ![E, H']⟩ ![0, 1] h3 wc) (ix2 e h)
      = ((((∑ k : Fin H, xg (ix2 e k) * Wm (ix2 k h)) + bm (ix1 h)) + ea (ix2 e 0) * We (ix2 0 h)) + be (ix1 h)) * wc (ix2 e 0) := by
  rw [mulf_apply, addf_apply, addf_apply, addf_apply]
  simp only [Host.dotGeneral]
  rw [dotGeneral_eq_matProd d1 hlc hrc hln hrn hlb hrb, matProd_apply,
    dotGeneral_eq_matProd d2 hlc' hrc' hln' hrn' hlb' hrb', matProd_apply, Fin.sum_univ_one,
    Cert.Lib.RowVector.bcastInDim_rows_apply, Cert.Lib.RowVector.bcastInDim_eq_asRow, Cert.Lib.RowVector.asRow_apply,
    Cert.Lib.RowVector.bcastInDim_rows_apply, Cert.Lib.RowVector.bcastInDim_eq_asRow, Cert.Lib.RowVector.asRow_apply,
    bcastInDim_cols_apply]

variable {α : Type} {E : Nat}

/-- The first column of two one-column arrays joined side by side is the first array's column. -/
theorem concat_cols_left (a b : (⟨2, ![E, 1]⟩ : Shape).Idx → α)
    (hc : Shape.Concatenates [(⟨2, ![E, 1]⟩ : Shape), ⟨2, ![E, 1]⟩] ⟨2, ![E, 2]⟩ 1) (e : Fin E) :
    concatenate ⟨2, ![E, 2]⟩ 1 [⟨⟨2, ![E, 1]⟩, a⟩, ⟨⟨2, ![E, 1]⟩, b⟩] hc (ix2 e 0) = a (ix2 e 0) :=
  concatenate_pair_apply_left 1 a b hc (ix2 e 0) rfl (ix2 e 0) (by intro t; fin_cases t <;> rfl)

/-- The second column is the second array's column. -/
theorem concat_cols_right (a b : (⟨2, ![E, 1]⟩ : Shape).Idx → α)
    (hc : Shape.Concatenates [(⟨2, ![E, 1]⟩ : Shape), ⟨2, ![E, 1]⟩] ⟨2, ![E, 2]⟩ 1) (e : Fin E) :
    concatenate ⟨2, ![E, 2]⟩ 1 [⟨⟨2, ![E, 1]⟩, a⟩, ⟨⟨2, ![E, 1]⟩, b⟩] hc (ix2 e 1) = b (ix2 e 0) :=
  concatenate_pair_apply_right 1 a b hc (ix2 e 1) rfl rfl (ix2 e 0)
    (by intro t ht; fin_cases t
        · rfl
        · exact absurd rfl ht)
    (by rfl)

end Cert.Lib.HostSpellings

end
-- ==== Proof.BridgeRegions.lean ====
/-
  The three kernel regions against the reference's stages.

  What a region leaves in its output array is, entry by entry, the kernel's formula of the arrays the region
  found (ProjValue, MsgValue).  Here those arrays are the ones the kernel program has at the region's entry —
  the reference's own earlier stages, the two-column edge array made of the edge network's column and the
  visibility column, and bias vectors re-shaped to 1×64 rows — and the formula is matched with the reference's
  spelling of the same stage: the projection X·Wq + bq, and a layer's edge messages.  A bias vector re-shaped to
  a row reads at (0, q) as the vector at q; the two-column array reads its columns from its two pieces; a
  contraction over one coordinate is one product.  The groupings agree, so nothing is re-associated.
-/
import proofs.«160139_j21938692948237_2_alg».proof.Proof.Gen.KernelIdeal.Frame
import proofs.«160139_j21938692948237_2_alg».proof.Proof.RefRead
import proofs.«160139_j21938692948237_2_alg».proof.Proof.ProjValue
import proofs.«160139_j21938692948237_2_alg».proof.Proof.MsgValue
import proofs.«160139_j21938692948237_2_alg».proof.Proof.LibHostSpellings
import proofs.«160139_j21938692948237_2_alg».proof.Proof.LibRowVector
import proofs.«160139_j21938692948237_2_alg».proof.Proof.LibRowReductions
import Idealize.ShloMosaic.PureOps.Ideal

set_option maxRecDepth 16384

noncomputable section

open scoped BigOperators

namespace Cert.Bridge

open Cert.Lib.HostSpellings Cert.KernelIdeal Cert.KernelIdeal.Facts₀ Idealize.ShloMosaic Idealize.ShloMosaic.TcCoe Idealize.ShloMosaic.ValueIdx

/-- The reference's spelling of a layer's edge messages, over the arrays it is applied to. -/
def hostMsg (xg : S1600000x64.Idx → EReal) (ea wc : S1600000x1.Idx → EReal) (Wm : S64x64.Idx → EReal)
    (bm : S64.Idx → EReal) (We : S1x64.Idx → EReal) (be : S64.Idx → EReal) : S1600000x64.Idx → EReal :=
  mulf (F := Ideal) (φ := .f32) (addf (addf (addf
        (Host.dotGeneral (F := Ideal) (φ₁ := .f32) (φ₂ := .f32) Cert.ReferenceIdeal.dot_S1600000x64_S64x64_S1600000x64_1_0_0_1_n_n none (xg : FVec Ideal S1600000x64 .f32) (Wm : FVec Ideal S64x64 .f32))
        (broadcastInDim S1600000x64 ![0, 1] Cert.ReferenceIdeal.Facts₀.bcast_S1x64_S1600000x64_0_1 (broadcastInDim S1x64 ![1] Cert.ReferenceIdeal.Facts₀.bcast_S64_S1x64_1 bm)))
        (Host.dotGeneral (F := Ideal) (φ₁ := .f32) (φ₂ := .f32) Cert.ReferenceIdeal.dot_S1600000x1_S1x64_S1600000x64_1_0_0_1_n_n none (ea : FVec Ideal S1600000x1 .f32) (We : FVec Ideal S1x64 .f32)))
        (broadcastInDim S1600000x64 ![0, 1] Cert.ReferenceIdeal.Facts₀.bcast_S1x64_S1600000x64_0_1 (broadcastInDim S1x64 ![1] Cert.ReferenceIdeal.Facts₀.bcast_S64_S1x64_1 be)))
      (broadcastInDim S1600000x64 ![0, 1] Cert.ReferenceIdeal.Facts₀.bcast_S1600000x1_S1600000x64_0_1 wc)

/-- The kernel's message formula on the two-column edge array and the re-shaped bias rows is the reference's
    spelling on the columns and the bias vectors. -/
theorem msg_bridge (xg : S1600000x64.Idx → EReal) (ea wc : S1600000x1.Idx → EReal) (Wm : S64x64.Idx → EReal)
    (bm : S64.Idx → EReal) (We : S1x64.Idx → EReal) (be : S64.Idx → EReal) :
    Cert.KernelIdeal.MsgValue.msgArr xg
        (concatenate S1600000x2 1 [⟨S1600000x1, ea⟩, ⟨S1600000x1, wc⟩] concatenates_S1600000x1_S1600000x1_S1600000x2_d1)
        Wm (shapeCast S1x64 bm shapeCasts_S64_S1x64) We (shapeCast S1x64 be shapeCasts_S64_S1x64)
      = hostMsg xg ea wc Wm bm We be := by
  funext i
  obtain ⟨e, h, rfl⟩ : ∃ (e : Fin 1600000) (h : Fin 64), i = ix2 e h := ⟨i 0, i 1, eq_ix2 i⟩
  rw [Cert.KernelIdeal.MsgValue.msgArr_apply, Cert.KernelIdeal.MsgValue.msg_apply]
  unfold hostMsg
  rw [hostMessage_apply _ rfl rfl rfl rfl rfl rfl _ rfl rfl rfl rfl rfl rfl,
    concat_cols_left, concat_cols_right,
    Cert.Lib.RowVector.shapeCast_eq_asRow, Cert.Lib.RowVector.asRow_apply,
    Cert.Lib.RowVector.shapeCast_eq_asRow, Cert.Lib.RowVector.asRow_apply]

/-- Region 0: the projection of the query features. -/
theorem proj_bridge (x0 : (⟨S100000x1024, .f32⟩ : BufTy).Contents (Elt Ideal)) (x6 : (⟨S1024x64, .f32⟩ : BufTy).Contents (Elt Ideal)) (x7 : (⟨S64, .f32⟩ : BufTy).Contents (Elt Ideal)) :
    Cert.KernelIdeal.ProjValue.projArr x0 x6 (shapeCast S1x64 x7 shapeCasts_S64_S1x64) = (Cert.ReferenceIdeal.ReadP.val_main_v17 (F := Ideal) x0 x6 x7) := by
  funext i
  obtain ⟨p, q, rfl⟩ : ∃ (p : Fin 100000) (q : Fin 64), i = ix2 p q := ⟨i 0, i 1, eq_ix2 i⟩
  rw [Cert.KernelIdeal.ProjValue.projArr_apply, Cert.KernelIdeal.ProjValue.proj_apply,
    Cert.Lib.RowVector.shapeCast_eq_asRow, Cert.Lib.RowVector.asRow_apply]
  exact (hostAffine_apply Cert.ReferenceIdeal.dot_S100000x1024_S1024x64_S100000x64_1_0_0_1_n_n rfl rfl rfl rfl rfl rfl
    Cert.ReferenceIdeal.Facts₀.bcast_S64_S1x64_1 Cert.ReferenceIdeal.Facts₀.bcast_S1x64_S100000x64_0_1 x0 x6 x7 p q).symm

/-- Region 1: the first layer's edge messages. -/
theorem msg_bridge1 (x0 : (⟨S100000x1024, .f32⟩ : BufTy).Contents (Elt Ideal)) (x1 : (⟨S64x2048, .f32⟩ : BufTy).Contents (Elt Ideal)) (x2 : (⟨S1600000x1, .f32⟩ : BufTy).Contents (Elt Ideal)) (x3 : (⟨S2x1600000, .i32⟩ : BufTy).Contents (Elt Ideal)) (x5 : (⟨S1600000, .i1⟩ : BufTy).Contents (Elt Ideal)) (x6 : (⟨S1024x64, .f32⟩ : BufTy).Contents (Elt Ideal)) (x7 : (⟨S64, .f32⟩ : BufTy).Contents (Elt Ideal)) (x8 : (⟨S2048x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S1x64, .f32⟩ : BufTy).Contents (Elt Ideal)) (x13 : (⟨S64, .f32⟩ : BufTy).Contents (Elt Ideal)) (x22 : (⟨S1x1, .f32⟩ : BufTy).Contents (Elt Ideal)) (x23 : (⟨S1, .f32⟩ : BufTy).Contents (Elt Ideal)) :
    Cert.KernelIdeal.MsgValue.msgArr (Cert.ReferenceIdeal.ReadP.val_main_v29 (F := Ideal) x0 x1 x3 x6 x7 x8 x9) (concatenate S1600000x2 1 [⟨S1600000x1, (Cert.ReferenceIdeal.ReadP.val_main_v13 (F := Ideal) x2 x22 x23)⟩, ⟨S1600000x1, (Cert.ReferenceIdeal.ReadP.val_main_v39 (F := Ideal) x5)⟩] concatenates_S1600000x1_S1600000x1_S1600000x2_d1) x10 (shapeCast S1x64 x11 shapeCasts_S64_S1x64) x12 (shapeCast S1x64 x13 shapeCasts_S64_S1x64) = (Cert.ReferenceIdeal.ReadP.val_main_v41 (F := Ideal) x0 x1 x2 x3 x5 x6 x7 x8 x9 x10 x11 x12 x13 x22 x23) :=
  (msg_bridge _ _ _ _ _ _ _).trans rfl

/-- Region 2: the second layer's edge messages. -/
theorem msg_bridge2 (x0 : (⟨S100000x1024, .f32⟩ : BufTy).Contents (Elt Ideal)) (x1 : (⟨S64x2048, .f32⟩ : BufTy).Contents (Elt Ideal)) (x2 : (⟨S1600000x1, .f32⟩ : BufTy).Contents (Elt Ideal)) (x3 : (⟨S2x1600000, .i32⟩ : BufTy).Contents (Elt Ideal)) (x5 : (⟨S1600000, .i1⟩ : BufTy).Contents (Elt Ideal)) (x6 : (⟨S1024x64, .f32⟩ : BufTy).Contents (Elt Ideal)) (x7 : (⟨S64, .f32⟩ : BufTy).Contents (Elt Ideal)) (x8 : (⟨S2048x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S1x64, .f32⟩ : BufTy).Contents (Elt Ideal)) (x13 : (⟨S64, .f32⟩ : BufTy).Contents (Elt Ideal)) (x14 : (⟨S64x64, .f32⟩ : BufTy).Contents (Elt Ideal)) (x15 : (⟨S64, .f32⟩ : BufTy).Contents (Elt Ideal)) (x16 : (⟨S1x64, .f32⟩ : BufTy).Contents (Elt Ideal)) (x17 : (⟨S64, .f32⟩ : BufTy).Contents (Elt Ideal)) (x18 : (⟨S64, .f32⟩ : BufTy).Contents (Elt Ideal)) (x19 : (⟨S64, .f32⟩ : BufTy).Contents (Elt Ideal)) (x22 : (⟨S1x1, .f32⟩ : BufTy).Contents (Elt Ideal)) (x23 : (⟨S1, .f32⟩ : BufTy).Contents (Elt Ideal)) :
    Cert.KernelIdeal.MsgValue.msgArr (Cert.ReferenceIdeal.ReadP.val_main_v90 (F := Ideal) x0 x1 x2 x3 x5 x6 x7 x8 x9 x10 x11 x12 x13 x18 x19 x22 x23) (concatenate S1600000x2 1 [⟨S1600000x1, (Cert.ReferenceIdeal.ReadP.val_main_v13 (F := Ideal) x2 x22 x23)⟩, ⟨S1600000x1, (Cert.ReferenceIdeal.ReadP.val_main_v39 (F := Ideal) x5)⟩] concatenates_S1600000x1_S1600000x1_S1600000x2_d1) x14 (shapeCast S1x64 x15 shapeCasts_S64_S1x64) x16 (shapeCast S1x64 x17 shapeCasts_S64_S1x64) = (Cert.ReferenceIdeal.ReadP.val_main_v102 (F := Ideal) x0 x1 x2 x3 x5 x6 x7 x8 x9 x10 x11 x12 x13 x14 x15 x16 x17 x18 x19 x22 x23) :=
  (msg_bridge _ _ _ _ _ _ _).trans rfl

end Cert.Bridge

end
-- ==== Proof.ChainEntry1.lean ====
/-
  The idealized kernel program's buffers after its first region and when its second region is entered.

  Region 0 leaves the projection of the query features, X·Wq + bq, in its output array — the reference's value
  of that name — and touches no other buffer.  The stretch of host operations that follows projects the 64
  remaining rows, stacks the two projections into the node features, sums the visibility weights into each
  target node (the degree), narrows the node features (the identity on the extended reals), gathers the source
  node's row for every edge, and re-shapes two bias vectors to rows.  Each is the reference's value of the same
  name as a function of the argument arrays.
-/
import proofs.«160139_j21938692948237_2_alg».proof.Proof.ChainEntry0
import proofs.«160139_j21938692948237_2_alg».proof.Proof.ProjValue
import proofs.«160139_j21938692948237_2_alg».proof.Proof.BridgeRegions

set_option maxRecDepth 16384

noncomputable section
namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

attribute [local congr] Cert.Lib.ConcatCongr.concatenate_pair_congr

/-! ## After region 0: its output array is the projection; every other buffer is as the region found it -/

theorem e4_v17 : W4 (F := Ideal) m ρ c (Proc.devRef .tc main_v17) = (Cert.ReferenceIdeal.ReadP.val_main_v17 (F := Ideal) (m ((c : Thread nD τ).loc main_arg0)) (m ((c : Thread nD τ).loc main_arg6)) (m ((c : Thread nD τ).loc main_arg7))) := by
  refine (W4_arr m ρ c 3).trans ((Cert.KernelIdeal.ProjValue.proj_arr (V3 m ρ) c).trans ?_)
  show Cert.KernelIdeal.ProjValue.projArr (W3 m ρ c (Proc.devRef .tc main_arg0)) (W3 m ρ c (Proc.devRef .tc main_arg6)) (W3 m ρ c (Proc.devRef .tc main_v16)) = _
  rw [e3_arg0, e3_arg6, e3_v16]
  exact Cert.Bridge.proj_bridge (m ((c : Thread nD τ).loc main_arg0)) (m ((c : Thread nD τ).loc main_arg6)) (m ((c : Thread nD τ).loc main_arg7))

theorem e4_v1 : W4 (F := Ideal) m ρ c (Proc.devRef .tc main_v1) = (Cert.ReferenceIdeal.ReadP.val_main_v1 (F := Ideal) (m ((c : Thread nD τ).loc main_arg3))) :=
  (W4_of_ne m ρ c main_v1 (by decide)).trans (e3_v1 m ρ c)

theorem e4_v3 : W4 (F := Ideal) m ρ c (Proc.devRef .tc main_v3) = (Cert.ReferenceIdeal.ReadP.val_main_v3 (F := Ideal) (m ((c : Thread nD τ).loc main_arg3))) :=
  (W4_of_ne m ρ c main_v3 (by decide)).trans (e3_v3 m ρ c)

theorem e4_v4 : W4 (F := Ideal) m ρ c (Proc.devRef .tc main_v4) = (Cert.ReferenceIdeal.ReadP.val_main_v4 (F := Ideal) (m ((c : Thread nD τ).loc main_arg5))) :=
  (W4_of_ne m ρ c main_v4 (by decide)).trans (e3_v4 m ρ c)

theorem e4_v15 : W4 (F := Ideal) m ρ c (Proc.devRef .tc main_v15) = (concatenate S1600000x2 1 [⟨S1600000x1, (Cert.ReferenceIdeal.ReadP.val_main_v13 (F := Ideal) (m ((c : Thread nD τ).loc main_arg2)) (m ((c : Thread nD τ).loc main_arg22)) (m ((c : Thread nD τ).loc main_arg23)))⟩, ⟨S1600000x1, (Cert.ReferenceIdeal.ReadP.val_main_v39 (F := Ideal) (m ((c : Thread nD τ).loc main_arg5)))⟩] concatenates_S1600000x1_S1600000x1_S1600000x2_d1) :=
  (W4_of_ne m ρ c main_v15 (by decide)).trans (e3_v15 m ρ c)

theorem e4_arg1 : W4 (F := Ideal) m ρ c (Proc.devRef .tc main_arg1) = (m ((c : Thread nD τ).loc main_arg1)) :=
  (W4_of_ne m ρ c main_arg1 (by decide)).trans (e3_arg1 m ρ c)

theorem e4_arg8 : W4 (F := Ideal) m ρ c (Proc.devRef .tc main_arg8) = (m ((c : Thread nD τ).loc main_arg8)) :=
  (W4_of_ne m ρ c main_arg8 (by decide)).trans (e3_arg8 m ρ c)

theorem e4_arg9 : W4 (F := Ideal) m ρ c (Proc.devRef .tc main_arg9) = (m ((c : Thread nD τ).loc main_arg9)) :=
  (W4_of_ne m ρ c main_arg9 (by decide)).trans (e3_arg9 m ρ c)

theorem e4_arg10 : W4 (F := Ideal) m ρ c (Proc.devRef .tc main_arg10) = (m ((c : Thread nD τ).loc main_arg10)) :=
  (W4_of_ne m ρ c main_arg10 (by decide)).trans (e3_arg10 m ρ c)

theorem e4_arg11 : W4 (F := Ideal) m ρ c (Proc.devRef .tc main_arg11) = (m ((c : Thread nD τ).loc main_arg11)) :=
  (W4_of_ne m ρ c main_arg11 (by decide)).trans (e3_arg11 m ρ c)

theorem e4_arg12 : W4 (F := Ideal) m ρ c (Proc.devRef .tc main_arg12) = (m ((c : Thread nD τ).loc main_arg12)) :=
  (W4_of_ne m ρ c main_arg12 (by decide)).trans (e3_arg12 m ρ c)

theorem e4_arg13 : W4 (F := Ideal) m ρ c (Proc.devRef .tc main_arg13) = (m ((c : Thread nD τ).loc main_arg13)) :=
  (W4_of_ne m ρ c main_arg13 (by decide)).trans (e3_arg13 m ρ c)

theorem e4_arg14 : W4 (F := Ideal) m ρ c (Proc.devRef .tc main_arg14) = (m ((c : Thread nD τ).loc main_arg14)) :=
  (W4_of_ne m ρ c main_arg14 (by decide)).trans (e3_arg14 m ρ c)

theorem e4_arg15 : W4 (F := Ideal) m ρ c (Proc.devRef .tc main_arg15) = (m ((c : Thread nD τ).loc main_arg15)) :=
  (W4_of_ne m ρ c main_arg15 (by decide)).trans (e3_arg15 m ρ c)

theorem e4_arg16 : W4 (F := Ideal) m ρ c (Proc.devRef .tc main_arg16) = (m ((c : Thread nD τ).loc main_arg16)) :=
  (W4_of_ne m ρ c main_arg16 (by decide)).trans (e3_arg16 m ρ c)

theorem e4_arg17 : W4 (F := Ideal) m ρ c (Proc.devRef .tc main_arg17) = (m ((c : Thread nD τ).loc main_arg17)) :=
  (W4_of_ne m ρ c main_arg17 (by decide)).trans (e3_arg17 m ρ c)

theorem e4_arg18 : W4 (F := Ideal) m ρ c (Proc.devRef .tc main_arg18) = (m ((c : Thread nD τ).loc main_arg18)) :=
  (W4_of_ne m ρ c main_arg18 (by decide)).trans (e3_arg18 m ρ c)

theorem e4_arg19 : W4 (F := Ideal) m ρ c (Proc.devRef .tc main_arg19) = (m ((c : Thread nD τ).loc main_arg19)) :=
  (W4_of_ne m ρ c main_arg19 (by decide)).trans (e3_arg19 m ρ c)

theorem e4_arg20 : W4 (F := Ideal) m ρ c (Proc.devRef .tc main_arg20) = (m ((c : Thread nD τ).loc main_arg20)) :=
  (W4_of_ne m ρ c main_arg20 (by decide)).trans (e3_arg20 m ρ c)

theorem e4_arg21 : W4 (F := Ideal) m ρ c (Proc.devRef .tc main_arg21) = (m ((c : Thread nD τ).loc main_arg21)) :=
  (W4_of_ne m ρ c main_arg21 (by decide)).trans (e3_arg21 m ρ c)

/-! ## At the entry of region 1 (after the second stretch of host operations) -/

set_option maxHeartbeats 4000000 in
theorem e5_v22 : W5 (F := Ideal) m ρ c (Proc.devRef .tc main_v22) = (Cert.ReferenceIdeal.ReadP.val_main_v22 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9))) := by
  show StableHlo.after hostOps1 (W4 m ρ c) (Proc.devRef .tc main_v22) = _
  simp only [hostOps1]
  after_results_simp
  rw [e4_v17, e4_arg1, e4_arg8, e4_arg9]
  rfl

set_option maxHeartbeats 4000000 in
theorem e5_v25 : W5 (F := Ideal) m ρ c (Proc.devRef .tc main_v25) = (Cert.ReferenceIdeal.ReadP.val_main_v47 (F := Ideal) (m ((c : Thread nD τ).loc main_arg3)) (m ((c : Thread nD τ).loc main_arg5))) := by
  show StableHlo.after hostOps1 (W4 m ρ c) (Proc.devRef .tc main_v25) = _
  simp only [hostOps1]
  after_results_simp
  rw [e4_v3, e4_v4]
  rfl

set_option maxHeartbeats 4000000 in
theorem e5_v33 : W5 (F := Ideal) m ρ c (Proc.devRef .tc main_v33) = (Cert.ReferenceIdeal.ReadP.val_main_v29 (F := Ideal) (m ((c : Thread nD τ).loc main_arg0)) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9))) := by
  show StableHlo.after hostOps1 (W4 m ρ c) (Proc.devRef .tc main_v33) = _
  simp only [hostOps1]
  after_results_simp
  rw [e4_v17, e4_arg1, e4_arg8, e4_arg9, e4_v1]
  rfl

set_option maxHeartbeats 4000000 in
theorem e5_v34 : W5 (F := Ideal) m ρ c (Proc.devRef .tc main_v34) = (shapeCast S1x64 (m ((c : Thread nD τ).loc main_arg11)) shapeCasts_S64_S1x64) := by
  show StableHlo.after hostOps1 (W4 m ρ c) (Proc.devRef .tc main_v34) = _
  simp only [hostOps1]
  after_results_simp
  rw [e4_arg11]
  rfl

set_option maxHeartbeats 4000000 in
theorem e5_v35 : W5 (F := Ideal) m ρ c (Proc.devRef .tc main_v35) = (shapeCast S1x64 (m ((c : Thread nD τ).loc main_arg13)) shapeCasts_S64_S1x64) := by
  show StableHlo.after hostOps1 (W4 m ρ c) (Proc.devRef .tc main_v35) = _
  simp only [hostOps1]
  after_results_simp
  rw [e4_arg13]
  rfl

theorem e5_v1 : W5 (F := Ideal) m ρ c (Proc.devRef .tc main_v1) = (Cert.ReferenceIdeal.ReadP.val_main_v1 (F := Ideal) (m ((c : Thread nD τ).loc main_arg3))) := by
  show StableHlo.after hostOps1 (W4 m ρ c) (Proc.devRef .tc main_v1) = _
  simp only [hostOps1]
  after_results_simp
  exact e4_v1 m ρ c

theorem e5_v3 : W5 (F := Ideal) m ρ c (Proc.devRef .tc main_v3) = (Cert.ReferenceIdeal.ReadP.val_main_v3 (F := Ideal) (m ((c : Thread nD τ).loc main_arg3))) := by
  show StableHlo.after hostOps1 (W4 m ρ c) (Proc.devRef .tc main_v3) = _
  simp only [hostOps1]
  after_results_simp
  exact e4_v3 m ρ c

theorem e5_v15 : W5 (F := Ideal) m ρ c (Proc.devRef .tc main_v15) = (concatenate S1600000x2 1 [⟨S1600000x1, (Cert.ReferenceIdeal.ReadP.val_main_v13 (F := Ideal) (m ((c : Thread nD τ).loc main_arg2)) (m ((c : Thread nD τ).loc main_arg22)) (m ((c : Thread nD τ).loc main_arg23)))⟩, ⟨S1600000x1, (Cert.ReferenceIdeal.ReadP.val_main_v39 (F := Ideal) (m ((c : Thread nD τ).loc main_arg5)))⟩] concatenates_S1600000x1_S1600000x1_S1600000x2_d1) := by
  show StableHlo.after hostOps1 (W4 m ρ c) (Proc.devRef .tc main_v15) = _
  simp only [hostOps1]
  after_results_simp
  exact e4_v15 m ρ c

theorem e5_arg10 : W5 (F := Ideal) m ρ c (Proc.devRef .tc main_arg10) = (m ((c : Thread nD τ).loc main_arg10)) := by
  show StableHlo.after hostOps1 (W4 m ρ c) (Proc.devRef .tc main_arg10) = _
  simp only [hostOps1]
  after_results_simp
  exact e4_arg10 m ρ c

theorem e5_arg12 : W5 (F := Ideal) m ρ c (Proc.devRef .tc main_arg12) = (m ((c : Thread nD τ).loc main_arg12)) := by
  show StableHlo.after hostOps1 (W4 m ρ c) (Proc.devRef .tc main_arg12) = _
  simp only [hostOps1]
  after_results_simp
  exact e4_arg12 m ρ c

theorem e5_arg14 : W5 (F := Ideal) m ρ c (Proc.devRef .tc main_arg14) = (m ((c : Thread nD τ).loc main_arg14)) := by
  show StableHlo.after hostOps1 (W4 m ρ c) (Proc.devRef .tc main_arg14) = _
  simp only [hostOps1]
  after_results_simp
  exact e4_arg14 m ρ c

theorem e5_arg15 : W5 (F := Ideal) m ρ c (Proc.devRef .tc main_arg15) = (m ((c : Thread nD τ).loc main_arg15)) := by
  show StableHlo.after hostOps1 (W4 m ρ c) (Proc.devRef .tc main_arg15) = _
  simp only [hostOps1]
  after_results_simp
  exact e4_arg15 m ρ c

theorem e5_arg16 : W5 (F := Ideal) m ρ c (Proc.devRef .tc main_arg16) = (m ((c : Thread nD τ).loc main_arg16)) := by
  show StableHlo.after hostOps1 (W4 m ρ c) (Proc.devRef .tc main_arg16) = _
  simp only [hostOps1]
  after_results_simp
  exact e4_arg16 m ρ c

theorem e5_arg17 : W5 (F := Ideal) m ρ c (Proc.devRef .tc main_arg17) = (m ((c : Thread nD τ).loc main_arg17)) := by
  show StableHlo.after hostOps1 (W4 m ρ c) (Proc.devRef .tc main_arg17) = _
  simp only [hostOps1]
  after_results_simp
  exact e4_arg17 m ρ c

theorem e5_arg18 : W5 (F := Ideal) m ρ c (Proc.devRef .tc main_arg18) = (m ((c : Thread nD τ).loc main_arg18)) := by
  show StableHlo.after hostOps1 (W4 m ρ c) (Proc.devRef .tc main_arg18) = _
  simp only [hostOps1]
  after_results_simp
  exact e4_arg18 m ρ c

theorem e5_arg19 : W5 (F := Ideal) m ρ c (Proc.devRef .tc main_arg19) = (m ((c : Thread nD τ).loc main_arg19)) := by
  show StableHlo.after hostOps1 (W4 m ρ c) (Proc.devRef .tc main_arg19) = _
  simp only [hostOps1]
  after_results_simp
  exact e4_arg19 m ρ c

theorem e5_arg20 : W5 (F := Ideal) m ρ c (Proc.devRef .tc main_arg20) = (m ((c : Thread nD τ).loc main_arg20)) := by
  show StableHlo.after hostOps1 (W4 m ρ c) (Proc.devRef .tc main_arg20) = _
  simp only [hostOps1]
  after_results_simp
  exact e4_arg20 m ρ c

theorem e5_arg21 : W5 (F := Ideal) m ρ c (Proc.devRef .tc main_arg21) = (m ((c : Thread nD τ).loc main_arg21)) := by
  show StableHlo.after hostOps1 (W4 m ρ c) (Proc.devRef .tc main_arg21) = _
  simp only [hostOps1]
  after_results_simp
  exact e4_arg21 m ρ c

end Cert.KernelIdeal.Chain

end
-- ==== Proof.ChainEntry2.lean ====
/-
  The idealized kernel program's buffers after its second region and when its third region is entered.

  Region 1 leaves the first layer's edge messages in its output array; its input arrays (the gathered rows, the
  two-column edge array) are as it found them.  The three stretches that follow sum the messages into the
  target nodes, divide by the larger of the degree and one, add the node's own row, normalise every feature
  over the nodes (mean, then the mean of squared deviations, the reciprocal square root of that plus epsilon,
  scale and shift), apply the leaky rectifier, narrow, gather the source rows again and re-shape the second
  layer's bias vectors.  Each is the reference's value of the same name.
-/
import proofs.«160139_j21938692948237_2_alg».proof.Proof.ChainEntry1
import proofs.«160139_j21938692948237_2_alg».proof.Proof.MsgValue
import proofs.«160139_j21938692948237_2_alg».proof.Proof.BridgeRegions

set_option maxRecDepth 16384

noncomputable section
namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

attribute [local congr] Cert.Lib.ConcatCongr.concatenate_pair_congr

/-! ## After region 1: its output array is the first layer's edge messages; every other buffer is as found -/

theorem e6_v36 : W6 (F := Ideal) m ρ c (Proc.devRef .tc main_v36) = (Cert.ReferenceIdeal.ReadP.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg22)) (m ((c : Thread nD τ).loc main_arg23))) := by
  refine (W6_arr m ρ c 6).trans ((Cert.KernelIdeal.MsgValue.msg1_arr (V5 m ρ) c).trans ?_)
  show Cert.KernelIdeal.MsgValue.msgArr (W5 m ρ c (Proc.devRef .tc main_v33)) (W5 m ρ c (Proc.devRef .tc main_v15)) (W5 m ρ c (Proc.devRef .tc main_arg10)) (W5 m ρ c (Proc.devRef .tc main_v34)) (W5 m ρ c (Proc.devRef .tc main_arg12)) (W5 m ρ c (Proc.devRef .tc main_v35)) = _
  rw [e5_v33, e5_v15, e5_arg10, e5_v34, e5_arg12, e5_v35]
  exact Cert.Bridge.msg_bridge1 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg22)) (m ((c : Thread nD τ).loc main_arg23))

theorem e6_v1 : W6 (F := Ideal) m ρ c (Proc.devRef .tc main_v1) = (Cert.ReferenceIdeal.ReadP.val_main_v1 (F := Ideal) (m ((c : Thread nD τ).loc main_arg3))) :=
  (W6_of_ne m ρ c main_v1 (by decide)).trans (e5_v1 m ρ c)

theorem e6_v3 : W6 (F := Ideal) m ρ c (Proc.devRef .tc main_v3) = (Cert.ReferenceIdeal.ReadP.val_main_v3 (F := Ideal) (m ((c : Thread nD τ).loc main_arg3))) :=
  (W6_of_ne m ρ c main_v3 (by decide)).trans (e5_v3 m ρ c)

theorem e6_v22 : W6 (F := Ideal) m ρ c (Proc.devRef .tc main_v22) = (Cert.ReferenceIdeal.ReadP.val_main_v22 (F := Ideal) (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9))) :=
  (W6_of_ne m ρ c main_v22 (by decide)).trans (e5_v22 m ρ c)

theorem e6_v25 : W6 (F := Ideal) m ρ c (Proc.devRef .tc main_v25) = (Cert.ReferenceIdeal.ReadP.val_main_v47 (F := Ideal) (m ((c : Thread nD τ).loc main_arg3)) (m ((c : Thread nD τ).loc main_arg5))) :=
  (W6_of_ne m ρ c main_v25 (by decide)).trans (e5_v25 m ρ c)

theorem e6_arg14 : W6 (F := Ideal) m ρ c (Proc.devRef .tc main_arg14) = (m ((c : Thread nD τ).loc main_arg14)) :=
  (W6_of_ne m ρ c main_arg14 (by decide)).trans (e5_arg14 m ρ c)

theorem e6_arg15 : W6 (F := Ideal) m ρ c (Proc.devRef .tc main_arg15) = (m ((c : Thread nD τ).loc main_arg15)) :=
  (W6_of_ne m ρ c main_arg15 (by decide)).trans (e5_arg15 m ρ c)

theorem e6_arg16 : W6 (F := Ideal) m ρ c (Proc.devRef .tc main_arg16) = (m ((c : Thread nD τ).loc main_arg16)) :=
  (W6_of_ne m ρ c main_arg16 (by decide)).trans (e5_arg16 m ρ c)

theorem e6_arg17 : W6 (F := Ideal) m ρ c (Proc.devRef .tc main_arg17) = (m ((c : Thread nD τ).loc main_arg17)) :=
  (W6_of_ne m ρ c main_arg17 (by decide)).trans (e5_arg17 m ρ c)

theorem e6_arg18 : W6 (F := Ideal) m ρ c (Proc.devRef .tc main_arg18) = (m ((c : Thread nD τ).loc main_arg18)) :=
  (W6_of_ne m ρ c main_arg18 (by decide)).trans (e5_arg18 m ρ c)

theorem e6_arg19 : W6 (F := Ideal) m ρ c (Proc.devRef .tc main_arg19) = (m ((c : Thread nD τ).loc main_arg19)) :=
  (W6_of_ne m ρ c main_arg19 (by decide)).trans (e5_arg19 m ρ c)

theorem e6_arg20 : W6 (F := Ideal) m ρ c (Proc.devRef .tc main_arg20) = (m ((c : Thread nD τ).loc main_arg20)) :=
  (W6_of_ne m ρ c main_arg20 (by decide)).trans (e5_arg20 m ρ c)

theorem e6_arg21 : W6 (F := Ideal) m ρ c (Proc.devRef .tc main_arg21) = (m ((c : Thread nD τ).loc main_arg21)) :=
  (W6_of_ne m ρ c main_arg21 (by decide)).trans (e5_arg21 m ρ c)

theorem e6_v33 : W6 (F := Ideal) m ρ c (Proc.devRef .tc main_v33) = (Cert.ReferenceIdeal.ReadP.val_main_v29 (F := Ideal) (m ((c : Thread nD τ).loc main_arg0)) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9))) :=
  (W6_arr m ρ c 0).trans (((dat1 (V5 m ρ) c).arrAt_in 0 rfl _).trans ((A_eq1 (V5 m ρ) c 0).trans (e5_v33 m ρ c)))

theorem e6_v15 : W6 (F := Ideal) m ρ c (Proc.devRef .tc main_v15) = (concatenate S1600000x2 1 [⟨S1600000x1, (Cert.ReferenceIdeal.ReadP.val_main_v13 (F := Ideal) (m ((c : Thread nD τ).loc main_arg2)) (m ((c : Thread nD τ).loc main_arg22)) (m ((c : Thread nD τ).loc main_arg23)))⟩, ⟨S1600000x1, (Cert.ReferenceIdeal.ReadP.val_main_v39 (F := Ideal) (m ((c : Thread nD τ).loc main_arg5)))⟩] concatenates_S1600000x1_S1600000x1_S1600000x2_d1) :=
  (W6_arr m ρ c 1).trans (((dat1 (V5 m ρ) c).arrAt_in 1 rfl _).trans ((A_eq1 (V5 m ρ) c 1).trans (e5_v15 m ρ c)))

/-! ## At the entry of region 2 (after the three stretches that aggregate, normalise and rectify the first layer) -/

set_option maxHeartbeats 4000000 in
theorem e9_v75 : W9 (F := Ideal) m ρ c (Proc.devRef .tc main_v75) = (Cert.ReferenceIdeal.ReadP.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg22)) (m ((c : Thread nD τ).loc main_arg23))) := by
  show StableHlo.after hostOps2_2 (StableHlo.after hostOps2_1 (StableHlo.after hostOps2 (W6 m ρ c))) (Proc.devRef .tc main_v75) = _
  simp only [hostOps2, hostOps2_1, hostOps2_2]
  after_results_simp
  rw [e6_arg18, e6_v3, e6_v36, e6_v25, e6_v22, e6_arg19]
  rfl

set_option maxHeartbeats 4000000 in
theorem e9_v83 : W9 (F := Ideal) m ρ c (Proc.devRef .tc main_v83) = (Cert.ReferenceIdeal.ReadP.val_main_v90 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg22)) (m ((c : Thread nD τ).loc main_arg23))) := by
  show StableHlo.after hostOps2_2 (StableHlo.after hostOps2_1 (StableHlo.after hostOps2 (W6 m ρ c))) (Proc.devRef .tc main_v83) = _
  simp only [hostOps2, hostOps2_1, hostOps2_2]
  after_results_simp
  rw [e6_arg18, e6_v3, e6_v36, e6_v25, e6_v22, e6_arg19, e6_v1]
  rfl

set_option maxHeartbeats 4000000 in
theorem e9_v84 : W9 (F := Ideal) m ρ c (Proc.devRef .tc main_v84) = (shapeCast S1x64 (m ((c : Thread nD τ).loc main_arg15)) shapeCasts_S64_S1x64) := by
  show StableHlo.after hostOps2_2 (StableHlo.after hostOps2_1 (StableHlo.after hostOps2 (W6 m ρ c))) (Proc.devRef .tc main_v84) = _
  simp only [hostOps2, hostOps2_1, hostOps2_2]
  after_results_simp
  rw [e6_arg15]
  rfl

set_option maxHeartbeats 4000000 in
theorem e9_v85 : W9 (F := Ideal) m ρ c (Proc.devRef .tc main_v85) = (shapeCast S1x64 (m ((c : Thread nD τ).loc main_arg17)) shapeCasts_S64_S1x64) := by
  show StableHlo.after hostOps2_2 (StableHlo.after hostOps2_1 (StableHlo.after hostOps2 (W6 m ρ c))) (Proc.devRef .tc main_v85) = _
  simp only [hostOps2, hostOps2_1, hostOps2_2]
  after_results_simp
  rw [e6_arg17]
  rfl

theorem e9_v3 : W9 (F := Ideal) m ρ c (Proc.devRef .tc main_v3) = (Cert.ReferenceIdeal.ReadP.val_main_v3 (F := Ideal) (m ((c : Thread nD τ).loc main_arg3))) := by
  show StableHlo.after hostOps2_2 (StableHlo.after hostOps2_1 (StableHlo.after hostOps2 (W6 m ρ c))) (Proc.devRef .tc main_v3) = _
  simp only [hostOps2, hostOps2_1, hostOps2_2]
  after_results_simp
  exact e6_v3 m ρ c

theorem e9_v25 : W9 (F := Ideal) m ρ c (Proc.devRef .tc main_v25) = (Cert.ReferenceIdeal.ReadP.val_main_v47 (F := Ideal) (m ((c : Thread nD τ).loc main_arg3)) (m ((c : Thread nD τ).loc main_arg5))) := by
  show StableHlo.after hostOps2_2 (StableHlo.after hostOps2_1 (StableHlo.after hostOps2 (W6 m ρ c))) (Proc.devRef .tc main_v25) = _
  simp only [hostOps2, hostOps2_1, hostOps2_2]
  after_results_simp
  exact e6_v25 m ρ c

theorem e9_v33 : W9 (F := Ideal) m ρ c (Proc.devRef .tc main_v33) = (Cert.ReferenceIdeal.ReadP.val_main_v29 (F := Ideal) (m ((c : Thread nD τ).loc main_arg0)) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9))) := by
  show StableHlo.after hostOps2_2 (StableHlo.after hostOps2_1 (StableHlo.after hostOps2 (W6 m ρ c))) (Proc.devRef .tc main_v33) = _
  simp only [hostOps2, hostOps2_1, hostOps2_2]
  after_results_simp
  exact e6_v33 m ρ c

theorem e9_v15 : W9 (F := Ideal) m ρ c (Proc.devRef .tc main_v15) = (concatenate S1600000x2 1 [⟨S1600000x1, (Cert.ReferenceIdeal.ReadP.val_main_v13 (F := Ideal) (m ((c : Thread nD τ).loc main_arg2)) (m ((c : Thread nD τ).loc main_arg22)) (m ((c : Thread nD τ).loc main_arg23)))⟩, ⟨S1600000x1, (Cert.ReferenceIdeal.ReadP.val_main_v39 (F := Ideal) (m ((c : Thread nD τ).loc main_arg5)))⟩] concatenates_S1600000x1_S1600000x1_S1600000x2_d1) := by
  show StableHlo.after hostOps2_2 (StableHlo.after hostOps2_1 (StableHlo.after hostOps2 (W6 m ρ c))) (Proc.devRef .tc main_v15) = _
  simp only [hostOps2, hostOps2_1, hostOps2_2]
  after_results_simp
  exact e6_v15 m ρ c

theorem e9_arg14 : W9 (F := Ideal) m ρ c (Proc.devRef .tc main_arg14) = (m ((c : Thread nD τ).loc main_arg14)) := by
  show StableHlo.after hostOps2_2 (StableHlo.after hostOps2_1 (StableHlo.after hostOps2 (W6 m ρ c))) (Proc.devRef .tc main_arg14) = _
  simp only [hostOps2, hostOps2_1, hostOps2_2]
  after_results_simp
  exact e6_arg14 m ρ c

theorem e9_arg16 : W9 (F := Ideal) m ρ c (Proc.devRef .tc main_arg16) = (m ((c : Thread nD τ).loc main_arg16)) := by
  show StableHlo.after hostOps2_2 (StableHlo.after hostOps2_1 (StableHlo.after hostOps2 (W6 m ρ c))) (Proc.devRef .tc main_arg16) = _
  simp only [hostOps2, hostOps2_1, hostOps2_2]
  after_results_simp
  exact e6_arg16 m ρ c

theorem e9_arg20 : W9 (F := Ideal) m ρ c (Proc.devRef .tc main_arg20) = (m ((c : Thread nD τ).loc main_arg20)) := by
  show StableHlo.after hostOps2_2 (StableHlo.after hostOps2_1 (StableHlo.after hostOps2 (W6 m ρ c))) (Proc.devRef .tc main_arg20) = _
  simp only [hostOps2, hostOps2_1, hostOps2_2]
  after_results_simp
  exact e6_arg20 m ρ c

theorem e9_arg21 : W9 (F := Ideal) m ρ c (Proc.devRef .tc main_arg21) = (m ((c : Thread nD τ).loc main_arg21)) := by
  show StableHlo.after hostOps2_2 (StableHlo.after hostOps2_1 (StableHlo.after hostOps2 (W6 m ρ c))) (Proc.devRef .tc main_arg21) = _
  simp only [hostOps2, hostOps2_1, hostOps2_2]
  after_results_simp
  exact e6_arg21 m ρ c

end Cert.KernelIdeal.Chain

end
-- ==== Proof.ChainResult.lean ====
/-
  The idealized kernel program's result.

  Region 2 leaves the second layer's edge messages.  The last stretch aggregates and normalises them as the
  first layer's were (without the rectifier), gathers the normalised row of every edge's target node, widens the
  two gathered tables (the identity on the extended reals), multiplies them entry by entry, takes the mean over
  the 64 features and applies the logistic function, 1 / (1 + exp(−v)).  The reference gathers the source rows a
  second time instead of keeping them; the gathered table is the same function of the arguments.  So the result
  buffer's final contents are the reference's last stage of the argument arrays.
-/
import proofs.«160139_j21938692948237_2_alg».proof.Proof.ChainEntry2
import proofs.«160139_j21938692948237_2_alg».proof.Proof.MsgValue
import proofs.«160139_j21938692948237_2_alg».proof.Proof.BridgeRegions

set_option maxRecDepth 16384

noncomputable section
namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

attribute [local congr] Cert.Lib.ConcatCongr.concatenate_pair_congr

/-! ## After region 2: its output array is the second layer's edge messages -/

theorem e10_v86 : W10 (F := Ideal) m ρ c (Proc.devRef .tc main_v86) = (Cert.ReferenceIdeal.ReadP.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg22)) (m ((c : Thread nD τ).loc main_arg23))) := by
  refine (W10_arr m ρ c 6).trans ((Cert.KernelIdeal.MsgValue.msg2_arr (V9 m ρ) c).trans ?_)
  show Cert.KernelIdeal.MsgValue.msgArr (W9 m ρ c (Proc.devRef .tc main_v83)) (W9 m ρ c (Proc.devRef .tc main_v15)) (W9 m ρ c (Proc.devRef .tc main_arg14)) (W9 m ρ c (Proc.devRef .tc main_v84)) (W9 m ρ c (Proc.devRef .tc main_arg16)) (W9 m ρ c (Proc.devRef .tc main_v85)) = _
  rw [e9_v83, e9_v15, e9_arg14, e9_v84, e9_arg16, e9_v85]
  exact Cert.Bridge.msg_bridge2 (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg22)) (m ((c : Thread nD τ).loc main_arg23))

theorem e10_v3 : W10 (F := Ideal) m ρ c (Proc.devRef .tc main_v3) = (Cert.ReferenceIdeal.ReadP.val_main_v3 (F := Ideal) (m ((c : Thread nD τ).loc main_arg3))) :=
  (W10_of_ne m ρ c main_v3 (by decide)).trans (e9_v3 m ρ c)

theorem e10_v25 : W10 (F := Ideal) m ρ c (Proc.devRef .tc main_v25) = (Cert.ReferenceIdeal.ReadP.val_main_v47 (F := Ideal) (m ((c : Thread nD τ).loc main_arg3)) (m ((c : Thread nD τ).loc main_arg5))) :=
  (W10_of_ne m ρ c main_v25 (by decide)).trans (e9_v25 m ρ c)

theorem e10_v75 : W10 (F := Ideal) m ρ c (Proc.devRef .tc main_v75) = (Cert.ReferenceIdeal.ReadP.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg22)) (m ((c : Thread nD τ).loc main_arg23))) :=
  (W10_of_ne m ρ c main_v75 (by decide)).trans (e9_v75 m ρ c)

theorem e10_v33 : W10 (F := Ideal) m ρ c (Proc.devRef .tc main_v33) = (Cert.ReferenceIdeal.ReadP.val_main_v29 (F := Ideal) (m ((c : Thread nD τ).loc main_arg0)) (m ((c : Thread nD τ).loc main_arg1)) (m ((c : Thread nD τ).loc main_arg3)) (m ((c : Thread nD τ).loc main_arg6)) (m ((c : Thread nD τ).loc main_arg7)) (m ((c : Thread nD τ).loc main_arg8)) (m ((c : Thread nD τ).loc main_arg9))) :=
  (W10_of_ne m ρ c main_v33 (by decide)).trans (e9_v33 m ρ c)

theorem e10_arg20 : W10 (F := Ideal) m ρ c (Proc.devRef .tc main_arg20) = (m ((c : Thread nD τ).loc main_arg20)) :=
  (W10_of_ne m ρ c main_arg20 (by decide)).trans (e9_arg20 m ρ c)

theorem e10_arg21 : W10 (F := Ideal) m ρ c (Proc.devRef .tc main_arg21) = (m ((c : Thread nD τ).loc main_arg21)) :=
  (W10_of_ne m ρ c main_arg21 (by decide)).trans (e9_arg21 m ρ c)

/-! ## The result: the last stretch aggregates and normalises the second layer and scores every edge -/

set_option maxHeartbeats 4000000 in
theorem e11_v140 : W11 (F := Ideal) m ρ c (Proc.devRef .tc main_v140) = (Cert.ReferenceIdeal.ReadP.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))) := by
  show StableHlo.after hostOps3 (W10 m ρ c) (Proc.devRef .tc main_v140) = _
  simp only [hostOps3]
  after_results_simp
  rw [e10_v33, e10_arg20, e10_v3, e10_v86, e10_v25, e10_v75, e10_arg21]
  rfl

end Cert.KernelIdeal.Chain

end
-- ==== Proof.lean ====
/-
  The certificate: the graph-network scoring kernel against its reference.

  Both programs score every edge of a graph of 100064 nodes and 1600000 edges.  Node features are a projection
  of the query features (100000 rows, X·Wq + bq) stacked on a projection of 64 more rows; an edge network turns
  the one edge feature into one number per edge; two message-passing layers follow, each: gather the source
  node's row, message = ((row·W + b) + ea·We) + be, scaled by the edge's visibility, summed into the target
  node, divided by the larger of the node's visible degree and one, added to the node's own row, then batch
  normalisation over the nodes (the first layer also a leaky rectifier); the score of an edge is the logistic
  function of the mean over the 64 features of source row × normalised target row.

  The kernel program computes the projection and both layers' messages in three kernel regions over blocks of
  rows (2000 rows of nodes, 8000 edges at a time) and everything else by the same host operations as the
  reference.  On the extended reals a change of float format is the identity, a block of rows of a product is
  the same rows of the whole product, and a contraction over one coordinate is a single product; every sum and
  product is grouped in the kernel exactly as in the reference.  So the two programs compute the same function
  of the argument arrays, entry by entry, and no finiteness of the inputs is used: the precondition is never
  opened.

  The modules: KernelRun (the kernel program's run, every buffer's final contents named as a fold over the
  program's segments), ProjValue and MsgValue (what each region leaves in its output array, entry by entry),
  LibHostSpellings and BridgeRegions (the reference's spelling of the same entries), ChainEntry0 … ChainResult (the
  kernel program's buffers at each segment boundary, each equal to the reference's value of the same name), and
  the reference's run and stages (RefRun, RefRead).
-/
import proofs.«160139_j21938692948237_2_alg».proof.Defs
import proofs.«160139_j21938692948237_2_alg».proof.Proof.Gen.Kernel
import proofs.«160139_j21938692948237_2_alg».proof.Proof.Gen.Kernel.Skeleton
import proofs.«160139_j21938692948237_2_alg».proof.Proof.Gen.Kernel.Launch
import proofs.«160139_j21938692948237_2_alg».proof.Proof.Gen.Kernel.Points
import proofs.«160139_j21938692948237_2_alg».proof.Proof.Gen.Kernel.Frame
import proofs.«160139_j21938692948237_2_alg».proof.Proof.Gen.KernelIdeal
import proofs.«160139_j21938692948237_2_alg».proof.Proof.Gen.KernelIdeal.Skeleton
import proofs.«160139_j21938692948237_2_alg».proof.Proof.Gen.KernelIdeal.Launch
import proofs.«160139_j21938692948237_2_alg».proof.Proof.Gen.KernelIdeal.Points
import proofs.«160139_j21938692948237_2_alg».proof.Proof.Gen.KernelIdeal.Frame
import proofs.«160139_j21938692948237_2_alg».proof.Proof.Gen.ReferenceIdeal
import proofs.«160139_j21938692948237_2_alg».proof.Proof.Gen.Pre_finite_inputs
import proofs.«160139_j21938692948237_2_alg».proof.Proof.RefRun
import proofs.«160139_j21938692948237_2_alg».proof.Proof.RefRead
import proofs.«160139_j21938692948237_2_alg».proof.Proof.KernelRun
import proofs.«160139_j21938692948237_2_alg».proof.Proof.ChainResult
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Run from memories that agree on the arguments, both programs end with the result array at the reference's last
    stage of the arguments: the kernel program because its result buffer's final contents, read back through its
    eleven segments, are that stage; the reference by its own run. -/
theorem algebraic : Cert.algebraic_KernelIdeal_ReferenceIdeal := by
  intro m ρ m' ρ' _ hagree
  refine ⟨fun c => Cert.ReferenceIdeal.ReadP.val_main_v163 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)), ?_, ?_⟩
  · exact (θ_run Cert.KernelIdeal.defs _ _).mono
      (fun r h c => ⟨(h c).1.trans (Cert.KernelIdeal.Chain.e11_v140 m ρ c), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v163_eq]
    obtain ⟨h0, h1, h2, h3, h4, h5, h6, h7, h8, h9, h10, h11, h12, h13, h14, h15, h16, h17, h18, h19, h20, h21, h22, h23⟩ := hagree c
    rw [h0, h1, h2, h3, h5, h6, h7, h8, h9, h10, h11, h12, h13, h14, h15, h16, h17, h18, h19, h20, h21, h22, h23]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
